-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x1x8192 : Shape := ⟨3, ![4, 1, 8192]⟩
abbrev S1x2048x3 : Shape := ⟨3, ![1, 2048, 3]⟩
abbrev S1x1x2048 : Shape := ⟨3, ![1, 1, 2048]⟩
abbrev S1x1x8192 : Shape := ⟨3, ![1, 1, 8192]⟩
abbrev S2048x3 : Shape := ⟨2, ![2048, 3]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x8192 : Shape := ⟨2, ![4, 8192]⟩
abbrev S_ : Shape := ⟨0, ![]⟩

abbrev nBuf : Space → Nat
  | .hbm => 19
  | .vmem => 8
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x1x8192, .f32⟩
  | .hbm, ⟨3, _⟩ => ⟨S4x1x8192, .f32⟩
  | .hbm, ⟨4, _⟩ => ⟨S4x8192, .f32⟩
  | .hbm, ⟨5, _⟩ => ⟨S4x8192, .f32⟩
  | .hbm, ⟨6, _⟩ => ⟨S4x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4x8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S1x2048x3, .f32⟩
  | .local _ .vmem, ⟨1, _⟩ => ⟨S1x2048x3, .f32⟩
  | .local _ .vmem, ⟨2, _⟩ => ⟨S1x2048x3, .f32⟩
  | .local _ .vmem, ⟨3, _⟩ => ⟨S1x2048x3, .f32⟩
  | .local _ .vmem, ⟨4, _⟩ => ⟨S1x1x2048, .f32⟩
  | .local _ .vmem, ⟨5, _⟩ => ⟨S1x1x2048, .f32⟩
  | .local _ .vmem, ⟨6, _⟩ => ⟨S1x1x8192, .f32⟩
  | .local _ .vmem, ⟨7, _⟩ => ⟨S1x1x8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_mult1 (i : grid0.Coords) : BitVec 32 :=
  let arg2 : BitVec 32 := BitVec.ofNat 32 (i 2).val
  let c2048_i32 : BitVec 32 := 2048#32
  let v34 : BitVec 32 := Scalar.muli arg2 c2048_i32
  v34
def k0_off1 (i : grid0.Coords) : Fin 3 → Nat :=
  let c0_20 : Index := 0#32
  let c0_21 : Index := 0#32
  let arg2 : BitVec 32 := BitVec.ofNat 32 (i 2).val
  let c2048_i32 : BitVec 32 := 2048#32
  let v34 : BitVec 32 := Scalar.muli arg2 c2048_i32
  let v35 : BitVec 32 := v34
  let v36 : Index := Scalar.indexCast v35
  ![0, 0, v36.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  reduces_S2048x3_S2048 : S2048x3.Reduces [1] S2048
  shapeCasts_S2048_S2048x1 : S2048.ShapeCasts S2048x1
  shapeCasts_S2048_S1x2048 : S2048.ShapeCasts S1x2048
  broadcasts_S2048x1_S2048x2048 : S2048x1.Broadcasts S2048x2048
  broadcasts_S1x2048_S2048x2048 : S1x2048.Broadcasts S2048x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S2048 : S1x1x2048.ShapeCasts S2048
  reduces_S2048x2048_S2048 : S2048x2048.Reduces [1] S2048
  shapeCasts_S2048_S1x1x2048 : S2048.ShapeCasts S1x1x2048
  inb_S1x1x8192_S1x1x8192_0_0_0 : ∀ a, (![0, 0, 0] : Fin 3 → Nat) a + S1x1x8192.size a ≤ S1x1x8192.size a
  h_S1x1x8192 : 0 < S1x1x8192.numel
  reduces_S2048x2048_S2048_2 : S2048x2048.Reduces [0] S2048
  shapeCasts_S4x1x8192_S4x8192 : S4x1x8192.ShapeCasts S4x8192
  reducesTo_S4x8192_S_d0_1 : S4x8192.ReducesTo [0, 1] S_
  h_S_ : 0 < S_.numel
  dot_S2048x3_S2048x3_S2048x2048_1_1_0_0_n_n_wf : DotDims.WF S2048x3 S2048x3 S2048x2048 [1] [1] [0] [0] [] []
  hrank0 : 0 < grid0.rank
  k0_mult1_dvd : ∀ i : grid0.Coords, 2048 ∣ (k0_mult1 i).toNat
  k0_off1_inb : ∀ i : grid0.Coords, ∀ a, (k0_off1 i) a + S1x1x2048.size a ≤ S1x1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x3.size a ≤ S4x8192x3.size a
  hwx0_0 : ∀ i : grid0.Coords, EltTy.bits .f32 = 32 ∨ (Rect.block (s := S4x8192x3) S1x2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x3.size a ≤ S4x8192x3.size a
  hwx0_1 : ∀ i : grid0.Coords, EltTy.bits .f32 = 32 ∨ (Rect.block (s := S4x8192x3) S1x2048x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S4x1x8192.size a
  hwx0_2 : ∀ i : grid0.Coords, EltTy.bits .f32 = 32 ∨ (Rect.block (s := S4x1x8192) S1x1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S4x1x8192.size a
  hwx0_3 : ∀ i : grid0.Coords, EltTy.bits .f32 = 32 ∨ (Rect.block (s := S4x1x8192) S1x1x8192.size (cc0_transform_3 i) (hinb0_3 i)).WholeWords (EltTy.packing .f32)

variable [Facts₀]

def dot_S2048x3_S2048x3_S2048x2048_1_1_0_0_n_n : DotDims S2048x3 S2048x3 S2048x2048 where
  lhsContracting := [1]
  rhsContracting := [1]
  lhsNonContracting := [0]
  rhsNonContracting := [0]
  lhsBatch := []
  rhsBatch := []
  wf := dot_S2048x3_S2048x3_S2048x2048_1_1_0_0_n_n_wf

abbrev win0_0 : Pipeline.Window sig grid0 :=
  Pipeline.Window.ofSpec (Memref.whole main_arg0) S1x2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 38
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S_, .f32⟩
  | .hbm, ⟨22, _⟩ => ⟨S4x8192, .f32⟩
  | .hbm, ⟨23, _⟩ => ⟨S_, .f32⟩
  | .hbm, ⟨24, _⟩ => ⟨S4x8192, .f32⟩
  | .hbm, ⟨25, _⟩ => ⟨S4x8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4x8192, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S_d0_1 : S4x8192.ReducesTo [0, 1] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.KernelIdeal.Shared.lean ====
/-
  What the three runs of the body share. The grid is 4 x 4 x 4, point t = 16*p + 4*n + m (batch p, tile n of the first
  cloud, tile m of the second). The body branches twice on the coordinates: on m = 0 (the running row minima start
  afresh) and on n = 0 and m = 0 (the running column minima start afresh). Over the 64 points these are t % 4 = 0 and
  t % 16 = 0. The column minima live in one block of 8192 per batch, of which the body rewrites the slice of 2048 at
  offset 2048*m.
-/
import proofs.«145064_j82746839925382_2_alg».proof.Proof.Gen.KernelIdeal.Frame
import proofs.«145064_j82746839925382_2_alg».proof.Proof.Gen.KernelIdeal.Skeleton
import proofs.«145064_j82746839925382_2_alg».proof.Proof.Gen.KernelIdeal.Points
import proofs.«145064_j82746839925382_2_alg».proof.Proof.Gen.KernelIdeal.Launch
import Idealize.ShloMosaic.Lib.Pipeline.FrameBody
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two branch conditions, decided over the grid -/

/-- The first conditional's condition (the second cloud's tile is the first of its sweep), as the body computes it. -/
abbrev cond0_0 (i : grid0.Coords) : Prop := (Scalar.cmpi .ne (Scalar.extui (Scalar.cmpi .eq (BitVec.ofNat 32 (i 2).val) 0#32)) 0#32) = 1#1
/-- It holds exactly at the points t with t % 4 = 0. -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional's condition (both tiles are the first: a new batch begins). -/
abbrev cond0_1 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- It holds exactly at the points t with t % 16 = 0. -/
theorem hcond0_1 : ∀ t : Fin cfg0.N, cond0_1 (grid0.coords t) ↔ t.val % 16 = 0 :=
  (by decide +kernel : ∀ t : Fin grid0.N, cond0_1 (grid0.coords t) ↔ t.val % 16 = 0)

/-- Where a batch begins the rewritten slice of the column minima is the first one. -/
theorem hoff_first : ∀ t : Fin cfg0.N, t.val % 16 = 0 → k0_off1 (grid0.coords t) = ![0, 0, 0] := by
  decide +kernel

/-- The slice's offset along the long axis is 2048 times the second cloud's tile number. -/
theorem hoff_val : ∀ t : Fin cfg0.N, k0_off1 (grid0.coords t) = ![0, 0, 2048 * (t.val % 4)] := by
  decide +kernel

/-! ## The staging memrefs the body is called with -/

abbrev ms0_0 (t : Fin cfg0.N) : Memref sig .tc .vmem S1x2048x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x8192 .f32 := win0_3.stage (cfg0.slots t 3)
abbrev hs0_3 (t : Fin cfg0.N) : (ms0_3 t).IsWhole := hstage0_3 ((cfg0.slots t 3).cast nbuf0_3)

/-- One staging buffer of each output, through which contents that do not depend on the buffer are stated. -/
abbrev VO0_2 : View sig .tc .vmem S1x1x2048 .f32 := (Memref.whole cc0_stg2_0 : Memref sig .tc .vmem S1x1x2048 .f32).view
abbrev VO0_3 : View sig .tc .vmem S1x1x8192 .f32 := (Memref.whole cc0_stg3_0 : Memref sig .tc .vmem S1x1x8192 .f32).view

end Cert.KernelIdeal.Body

end
-- ==== Proof.KernelIdeal.RunA.lean ====
/-
  The body where a batch begins (both conditionals taken). Both running minima are first set to +inf over their whole
  blocks and then lowered by this tile's minima, so what the two output buffers end with does not depend on what they
  held: each is handed over at anything and handed back with stores that cover it.
-/
import proofs.«145064_j82746839925382_2_alg».proof.Proof.KernelIdeal.Shared

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the two output buffers where a batch begins, with the proof that it runs. -/
noncomputable def kernelRun0_A (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x1x2048 .f32) (harg5 : arg5.IsWhole) (arg6 : Memref sig .tc .vmem S1x1x8192 .f32) (harg6 : arg6.IsWhole) (hc0 : cond0_0 i) (hc1 : cond0_1 i) (hl : k0_off1 i = ![0, 0, 0])
    (x0 : Vec F S1x2048x3 .f32) (x1 : Vec F S1x2048x3 .f32) :
    Σ' (L2 : List (View.Piece (Elt F) S1x1x2048 .f32)), { L3 : List (View.Piece (Elt F) S1x1x8192 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f L3)) -∗ K ⟨⟩))
          ⊢ wp frame (wpE (defs₀ (F := F)) Variants.none c none) E (cc0__chamfer_kernel i arg3 harg3 arg4 harg4 arg5 harg5 arg6 harg6) K } := by
  refine ⟨?_, ?_, fun E K => ?run⟩
  case run =>
    letI : ClosedOff (k0_off1 i) := ⟨![0, 0, 0], hl⟩
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact H3

end Cert.KernelIdeal.Body

end
-- ==== Proof.KernelIdeal.RunB.lean ====
/-
  The body in the middle of a sweep (neither conditional taken). The row minima are lowered over their whole block from
  what the point before left; of the column minima only the slice of this tile is read and rewritten, the rest of the
  block stays as the point before left it.
-/
import proofs.«145064_j82746839925382_2_alg».proof.Proof.KernelIdeal.RunA

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the two output buffers in the middle of a sweep, over the contents `xo2`, `xo3` the
    buffers were handed at, with the proof that it runs. -/
noncomputable def kernelRun0_B (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x1x2048 .f32) (harg5 : arg5.IsWhole) (arg6 : Memref sig .tc .vmem S1x1x8192 .f32) (harg6 : arg6.IsWhole) (hc0 : ¬cond0_0 i) (hc1 : ¬cond0_1 i)
    (x0 : Vec F S1x2048x3 .f32) (x1 : Vec F S1x2048x3 .f32) (xo2 : Vec F S1x1x2048 .f32) (xo3 : Vec F S1x1x8192 .f32) :
    Σ' (L2 : List (View.Piece (Elt F) S1x1x2048 .f32)), { L3 : List (View.Piece (Elt F) S1x1x8192 .f32) //
      ∀ (E : Set ℕ) (K : PUnit → sProp 𝕄),
        iprop(owns (c : Thread nD τ) arg3 fullShare x0 ∗ owns (c : Thread nD τ) arg4 fullShare x1 ∗ owns (c : Thread nD τ) arg5 fullShare xo2 ∗ owns (c : Thread nD τ) arg6 fullShare xo3
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (arg6.view.loc (c : Thread nD τ) ↦[arg6.view.set]{fullShare} arg6.view.writes (Elt F) (harg6.unread xo3) L3)) -∗ K ⟨⟩))
          ⊢ wp frame (wpE (defs₀ (F := F)) Variants.none c none) E (cc0__chamfer_kernel i arg3 harg3 arg4 harg4 arg5 harg5 arg6 harg6) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexact H3

end Cert.KernelIdeal.Body

end
-- ==== Proof.KernelIdeal.RunC.lean ====
/-
  The body where a sweep of the second cloud begins inside a batch (the first conditional taken, the second not). The
  row minima are set to +inf and lowered, so their buffer is handed over at anything; the column minima are lowered on
  this tile's slice over what the point before left.
-/
import proofs.«145064_j82746839925382_2_alg».proof.Proof.KernelIdeal.RunB

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the two output buffers where a sweep begins inside a batch, the column minima over
    the contents `xo3` their buffer was handed at, with the proof that it runs. -/
noncomputable def kernelRun0_C (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x1x2048 .f32) (harg5 : arg5.IsWhole) (arg6 : Memref sig .tc .vmem S1x1x8192 .f32) (harg6 : arg6.IsWhole) (hc0 : cond0_0 i) (hc1 : ¬cond0_1 i)
    (x0 : Vec F S1x2048x3 .f32) (x1 : Vec F S1x2048x3 .f32) (xo3 : Vec F S1x1x8192 .f32) :
    Σ' (L2 : List (View.Piece (Elt F) S1x1x2048 .f32)), { L3 : List (View.Piece (Elt F) S1x1x8192 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xo3
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (arg6.view.loc (c : Thread nD τ) ↦[arg6.view.set]{fullShare} arg6.view.writes (Elt F) (harg6.unread xo3) L3)) -∗ K ⟨⟩))
          ⊢ wp frame (wpE (defs₀ (F := F)) Variants.none c none) E (cc0__chamfer_kernel i arg3 harg3 arg4 harg4 arg5 harg5 arg6 harg6) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, Hk⟩
    obtain rfl := harg3.eq_unread hf0; obtain rfl := harg4.eq_unread hf1
    obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexact H3

end Cert.KernelIdeal.Body

end
-- ==== Proof.KernelIdeal.Frame.lean ====
/-
  The frame of the program: the proof data of its one pipelined call, the body's obligation at every grid point, the run.

  What the two output buffers hold after each point is told by recursion on the point. Where a batch begins both are
  rebuilt from nothing; where a sweep begins inside a batch the row minima are rebuilt and the column minima continue
  from the point before; elsewhere both continue. The row minima's block is written back after the last tile of a
  sweep (t % 4 = 3), the column minima's after the last point of a batch (t % 16 = 15); between write-backs a buffer
  holds what the point before left in it.
-/
import proofs.«145064_j82746839925382_2_alg».proof.Proof.KernelIdeal.RunC
import Idealize.ShloMosaic.Lib.Pipeline.FrameSuffix
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Stores that cover a block -/

/-- Where a batch begins the row minima's stores cover their block. -/
theorem cover0_A_2 (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x1x2048 .f32) (harg5 : arg5.IsWhole) (arg6 : Memref sig .tc .vmem S1x1x8192 .f32) (harg6 : arg6.IsWhole) (hc0 : cond0_0 i) (hc1 : cond0_1 i) (hl : k0_off1 i = ![0, 0, 0]) (x0 : Vec F S1x2048x3 .f32) (x1 : Vec F S1x2048x3 .f32) (y : S1x1x2048.Idx) :
    ∃ pc ∈ (kernelRun0_A c i arg3 harg3 arg4 harg4 arg5 harg5 arg6 harg6 hc0 hc1 hl x0 x1).1, y ∈ pc.1.set :=
  View.cover_of_tiledL (kernelRun0_A c i arg3 harg3 arg4 harg4 arg5 harg5 arg6 harg6 hc0 hc1 hl x0 x1).1 S1x1x2048.size (by sl_kernel_rfl) y

/-- In the middle of a sweep the row minima's one store covers their block. -/
theorem cover0_B_2 (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x1x2048 .f32) (harg5 : arg5.IsWhole) (arg6 : Memref sig .tc .vmem S1x1x8192 .f32) (harg6 : arg6.IsWhole) (hc0 : ¬cond0_0 i) (hc1 : ¬cond0_1 i) (x0 : Vec F S1x2048x3 .f32) (x1 : Vec F S1x2048x3 .f32) (xo2 : Vec F S1x1x2048 .f32) (xo3 : Vec F S1x1x8192 .f32) (y : S1x1x2048.Idx) :
    ∃ pc ∈ (kernelRun0_B c i arg3 harg3 arg4 harg4 arg5 harg5 arg6 harg6 hc0 hc1 x0 x1 xo2 xo3).1, y ∈ pc.1.set :=
  View.cover_of_tiledL (kernelRun0_B c i arg3 harg3 arg4 harg4 arg5 harg5 arg6 harg6 hc0 hc1 x0 x1 xo2 xo3).1 S1x1x2048.size (by sl_kernel_rfl) y

/-- Where a sweep begins inside a batch the row minima's stores cover their block. -/
theorem cover0_C_2 (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x1x2048 .f32) (harg5 : arg5.IsWhole) (arg6 : Memref sig .tc .vmem S1x1x8192 .f32) (harg6 : arg6.IsWhole) (hc0 : cond0_0 i) (hc1 : ¬cond0_1 i) (x0 : Vec F S1x2048x3 .f32) (x1 : Vec F S1x2048x3 .f32) (xo3 : Vec F S1x1x8192 .f32) (y : S1x1x2048.Idx) :
    ∃ pc ∈ (kernelRun0_C c i arg3 harg3 arg4 harg4 arg5 harg5 arg6 harg6 hc0 hc1 x0 x1 xo3).1, y ∈ pc.1.set :=
  View.cover_of_tiledL (kernelRun0_C c i arg3 harg3 arg4 harg4 arg5 harg5 arg6 harg6 hc0 hc1 x0 x1 xo3).1 S1x1x2048.size (by sl_kernel_rfl) y

/-- Where a batch begins the column minima's first store is of the whole block, so the stores cover it. -/
theorem cover0_A_3 (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x1x2048 .f32) (harg5 : arg5.IsWhole) (arg6 : Memref sig .tc .vmem S1x1x8192 .f32) (harg6 : arg6.IsWhole) (hc0 : cond0_0 i) (hc1 : cond0_1 i) (hl : k0_off1 i = ![0, 0, 0]) (x0 : Vec F S1x2048x3 .f32) (x1 : Vec F S1x2048x3 .f32) (y : S1x1x8192.Idx) :
    ∃ pc ∈ (kernelRun0_A c i arg3 harg3 arg4 harg4 arg5 harg5 arg6 harg6 hc0 hc1 hl x0 x1).2.1, y ∈ pc.1.set := by
  unfold kernelRun0_A; dsimp only; sl_unfold_words
  refine ⟨_, List.mem_cons_of_mem _ (List.mem_singleton_self _), ?_⟩
  exact View.mem_set_unit_zero (S := S1x1x8192) (off := ![0, 0, 0]) (by funext a; fin_cases a <;> rfl) Facts₀.inb_S1x1x8192_S1x1x8192_0_0_0 y

/-! ## What each case leaves in the two output buffers -/

def out0_A_2 (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x1x2048 .f32) (harg5 : arg5.IsWhole) (arg6 : Memref sig .tc .vmem S1x1x8192 .f32) (harg6 : arg6.IsWhole) (hc0 : cond0_0 i) (hc1 : cond0_1 i) (hl : k0_off1 i = ![0, 0, 0]) (x0 : Vec F S1x2048x3 .f32) (x1 : Vec F S1x2048x3 .f32) : Vec F S1x1x2048 .f32 :=
  VO0_2.read (Elt F) (VO0_2.writes (Elt F) VO0_2.junk (kernelRun0_A c i arg3 harg3 arg4 harg4 arg5 harg5 arg6 harg6 hc0 hc1 hl x0 x1).1)
def out0_A_3 (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x1x2048 .f32) (harg5 : arg5.IsWhole) (arg6 : Memref sig .tc .vmem S1x1x8192 .f32) (harg6 : arg6.IsWhole) (hc0 : cond0_0 i) (hc1 : cond0_1 i) (hl : k0_off1 i = ![0, 0, 0]) (x0 : Vec F S1x2048x3 .f32) (x1 : Vec F S1x2048x3 .f32) : Vec F S1x1x8192 .f32 :=
  VO0_3.read (Elt F) (VO0_3.writes (Elt F) VO0_3.junk (kernelRun0_A c i arg3 harg3 arg4 harg4 arg5 harg5 arg6 harg6 hc0 hc1 hl x0 x1).2.1)
def out0_B_2 (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x1x2048 .f32) (harg5 : arg5.IsWhole) (arg6 : Memref sig .tc .vmem S1x1x8192 .f32) (harg6 : arg6.IsWhole) (hc0 : ¬cond0_0 i) (hc1 : ¬cond0_1 i) (x0 : Vec F S1x2048x3 .f32) (x1 : Vec F S1x2048x3 .f32) (xo2 : Vec F S1x1x2048 .f32) (xo3 : Vec F S1x1x8192 .f32) : Vec F S1x1x2048 .f32 :=
  VO0_2.read (Elt F) (VO0_2.writes (Elt F) VO0_2.junk (kernelRun0_B c i arg3 harg3 arg4 harg4 arg5 harg5 arg6 harg6 hc0 hc1 x0 x1 xo2 xo3).1)
/-- The column minima's block after a point in the middle of a sweep: the one slice rewritten over what it held. -/
def out0_B_3 (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x1x2048 .f32) (harg5 : arg5.IsWhole) (arg6 : Memref sig .tc .vmem S1x1x8192 .f32) (harg6 : arg6.IsWhole) (hc0 : ¬cond0_0 i) (hc1 : ¬cond0_1 i) (x0 : Vec F S1x2048x3 .f32) (x1 : Vec F S1x2048x3 .f32) (xo2 : Vec F S1x1x2048 .f32) (xo3 : Vec F S1x1x8192 .f32) : Vec F S1x1x8192 .f32 :=
  arg6.view.read (Elt F) (arg6.view.writes (Elt F) (harg6.unread xo3) (kernelRun0_B c i arg3 harg3 arg4 harg4 arg5 harg5 arg6 harg6 hc0 hc1 x0 x1 xo2 xo3).2.1)
def out0_C_2 (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x1x2048 .f32) (harg5 : arg5.IsWhole) (arg6 : Memref sig .tc .vmem S1x1x8192 .f32) (harg6 : arg6.IsWhole) (hc0 : cond0_0 i) (hc1 : ¬cond0_1 i) (x0 : Vec F S1x2048x3 .f32) (x1 : Vec F S1x2048x3 .f32) (xo3 : Vec F S1x1x8192 .f32) : Vec F S1x1x2048 .f32 :=
  VO0_2.read (Elt F) (VO0_2.writes (Elt F) VO0_2.junk (kernelRun0_C c i arg3 harg3 arg4 harg4 arg5 harg5 arg6 harg6 hc0 hc1 x0 x1 xo3).1)
def out0_C_3 (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x1x2048 .f32) (harg5 : arg5.IsWhole) (arg6 : Memref sig .tc .vmem S1x1x8192 .f32) (harg6 : arg6.IsWhole) (hc0 : cond0_0 i) (hc1 : ¬cond0_1 i) (x0 : Vec F S1x2048x3 .f32) (x1 : Vec F S1x2048x3 .f32) (xo3 : Vec F S1x1x8192 .f32) : Vec F S1x1x8192 .f32 :=
  arg6.view.read (Elt F) (arg6.view.writes (Elt F) (harg6.unread xo3) (kernelRun0_C c i arg3 harg3 arg4 harg4 arg5 harg5 arg6 harg6 hc0 hc1 x0 x1 xo3).2.1)

/-! ## What the output buffers hold after each point -/

/-- The running minima, point by point: the row minima's block and the column minima's block after the body at `n`. -/
def outsAt0 (c : Dev nD) : (n : ℕ) → n < cfg0.N → Vec F S1x1x2048 .f32 × Vec F S1x1x8192 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (by have := (Nat.zero_mod 16); (try dsimp only at this ⊢) <;> omega)) ((hcond0_1 ⟨0, hn⟩).mpr (Nat.zero_mod 16)) (hoff_first ⟨0, hn⟩ (Nat.zero_mod 16)) (iblk m c 0 ⟨0, hn⟩) (iblk m c 1 ⟨0, hn⟩),
              out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (by have := (Nat.zero_mod 16); (try dsimp only at this ⊢) <;> omega)) ((hcond0_1 ⟨0, hn⟩).mpr (Nat.zero_mod 16)) (hoff_first ⟨0, hn⟩ (Nat.zero_mod 16)) (iblk m c 0 ⟨0, hn⟩) (iblk m c 1 ⟨0, hn⟩))
  | n + 1, hn =>
    if h1 : (n + 1) % 16 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr (by have := h1; (try dsimp only at this ⊢) <;> omega)) ((hcond0_1 ⟨n + 1, hn⟩).mpr h1) (hoff_first ⟨n + 1, hn⟩ h1) (iblk m c 0 ⟨n + 1, hn⟩) (iblk m c 1 ⟨n + 1, hn⟩),
       out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr (by have := h1; (try dsimp only at this ⊢) <;> omega)) ((hcond0_1 ⟨n + 1, hn⟩).mpr h1) (hoff_first ⟨n + 1, hn⟩ h1) (iblk m c 0 ⟨n + 1, hn⟩) (iblk m c 1 ⟨n + 1, hn⟩))
    else if h0 : (n + 1) % 4 = 0 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (outsAt0 c n (Nat.lt_of_succ_lt hn)).2,
       out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (outsAt0 c n (Nat.lt_of_succ_lt hn)).2)
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2,
       out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2)

/-- The point before `t`, as an index below the grid's size. -/
abbrev prevLt (t : Fin cfg0.N) : t.val - 1 < cfg0.N := Nat.lt_of_le_of_lt (Nat.sub_le _ _) t.isLt

/-- At a point where a batch begins. -/
theorem outsAt0_A (c : Dev nD) (t : Fin cfg0.N) (h1 : t.val % 16 = 0) :
    outsAt0 m c t.val t.isLt = (out0_A_2 c (grid0.coords t) (ms0_0 t) (hs0_0 t) (ms0_1 t) (hs0_1 t) (ms0_2 t) (hs0_2 t) (ms0_3 t) (hs0_3 t) ((hcond0_0 t).mpr (by have := h1; (try dsimp only at this ⊢) <;> omega)) ((hcond0_1 t).mpr h1) (hoff_first t h1) (iblk m c 0 t) (iblk m c 1 t),
      out0_A_3 c (grid0.coords t) (ms0_0 t) (hs0_0 t) (ms0_1 t) (hs0_1 t) (ms0_2 t) (hs0_2 t) (ms0_3 t) (hs0_3 t) ((hcond0_0 t).mpr (by have := h1; (try dsimp only at this ⊢) <;> omega)) ((hcond0_1 t).mpr h1) (hoff_first t h1) (iblk m c 0 t) (iblk m c 1 t)) := by
  obtain ⟨n, hn⟩ := t
  cases n with
  | zero => exact rfl
  | succ n => exact (dif_pos h1).trans rfl

/-- At a point where a sweep begins inside a batch. -/
theorem outsAt0_C (c : Dev nD) (t : Fin cfg0.N) (h0 : t.val % 4 = 0) (h1 : ¬t.val % 16 = 0) :
    outsAt0 m c t.val t.isLt = (out0_C_2 c (grid0.coords t) (ms0_0 t) (hs0_0 t) (ms0_1 t) (hs0_1 t) (ms0_2 t) (hs0_2 t) (ms0_3 t) (hs0_3 t) ((hcond0_0 t).mpr h0) (fun h => h1 ((hcond0_1 t).mp h)) (iblk m c 0 t) (iblk m c 1 t) (outsAt0 m c (t.val - 1) (prevLt t)).2,
      out0_C_3 c (grid0.coords t) (ms0_0 t) (hs0_0 t) (ms0_1 t) (hs0_1 t) (ms0_2 t) (hs0_2 t) (ms0_3 t) (hs0_3 t) ((hcond0_0 t).mpr h0) (fun h => h1 ((hcond0_1 t).mp h)) (iblk m c 0 t) (iblk m c 1 t) (outsAt0 m c (t.val - 1) (prevLt t)).2) := by
  obtain ⟨n, hn⟩ := t
  cases n with
  | zero => exact absurd (Nat.zero_mod _) h1
  | succ n => exact ((dif_neg h1).trans (dif_pos h0)).trans rfl

/-- At a point in the middle of a sweep. -/
theorem outsAt0_B (c : Dev nD) (t : Fin cfg0.N) (h0 : ¬t.val % 4 = 0) (h1 : ¬t.val % 16 = 0) :
    outsAt0 m c t.val t.isLt = (out0_B_2 c (grid0.coords t) (ms0_0 t) (hs0_0 t) (ms0_1 t) (hs0_1 t) (ms0_2 t) (hs0_2 t) (ms0_3 t) (hs0_3 t) (fun h => h0 ((hcond0_0 t).mp h)) (fun h => h1 ((hcond0_1 t).mp h)) (iblk m c 0 t) (iblk m c 1 t) (outsAt0 m c (t.val - 1) (prevLt t)).1 (outsAt0 m c (t.val - 1) (prevLt t)).2,
      out0_B_3 c (grid0.coords t) (ms0_0 t) (hs0_0 t) (ms0_1 t) (hs0_1 t) (ms0_2 t) (hs0_2 t) (ms0_3 t) (hs0_3 t) (fun h => h0 ((hcond0_0 t).mp h)) (fun h => h1 ((hcond0_1 t).mp h)) (iblk m c 0 t) (iblk m c 1 t) (outsAt0 m c (t.val - 1) (prevLt t)).1 (outsAt0 m c (t.val - 1) (prevLt t)).2) := by
  obtain ⟨n, hn⟩ := t
  cases n with
  | zero => exact absurd (Nat.zero_mod _) h1
  | succ n => exact ((dif_neg h1).trans (dif_neg h0)).trans rfl

/-! ## The proof data -/

/-- The arrays as the call finds them; after the body each input's buffer at its block, the outputs' at the running
    minima; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- Inside a sweep the row minima's buffer holds what the point before left: it was not written back between. -/
theorem before0_2_kept (c : Dev nD) (t : Fin cfg0.N) (h0 : ¬t.val % 4 = 0) (d) :
    (dats m 0 c).before 2 t d = (outsAt0 m c (t.val - 1) (prevLt t)).1 := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dats]

/-- Inside a batch the column minima's buffer holds what the point before left. -/
theorem before0_3_kept (c : Dev nD) (t : Fin cfg0.N) (h1 : ¬t.val % 16 = 0) (d) :
    (dats m 0 c).before 3 t d = (outsAt0 m c (t.val - 1) (prevLt t)).2 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point: which case the point is in is read off its number; a buffer that continues from the point
    before holds what that point left; the case's run applies; stores that cover a block name its contents whatever
    it held. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 64 := lt_of_lt_of_eq t.isLt (show cfg0.N = 64 from N_0)
  by_cases h1 : t.val % 16 = 0
  · rw [outsAt0_A m c t h1]
    dsimp only
    unfold out0_A_2 out0_A_3
    iintro ⟨HΦ, Ho, ⟨%d0, H0⟩, ⟨%d1, H1⟩, ⟨%d2, H2⟩, ⟨%d3, H3⟩⟩
    iapply ((kernelRun0_A c (grid0.coords t) (ms0_0 t) (hs0_0 t) (ms0_1 t) (hs0_1 t) (ms0_2 t) (hs0_2 t) (ms0_3 t) (hs0_3 t) ((hcond0_0 t).mpr (by have := h1; (try dsimp only at this ⊢) <;> omega)) ((hcond0_1 t).mpr h1) (hoff_first t h1) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _)
    unfold owns; iexists _; isplitr
    swap; · iexact H3
    ipureintro; exact View.read_writes_of_cover _ _ _ _ _ (cover0_A_3 c _ _ _ _ _ _ _ _ _ _ _ _ _ _)
  · by_cases h0 : t.val % 4 = 0
    · rw [outsAt0_C m c t h0 h1]
      dsimp only
      simp only [before0_3_kept m c t h1]
      unfold out0_C_2 out0_C_3
      iintro ⟨HΦ, Ho, ⟨%d0, H0⟩, ⟨%d1, H1⟩, ⟨%d2, H2⟩, ⟨%d3, H3⟩⟩
      iapply ((kernelRun0_C c (grid0.coords t) (ms0_0 t) (hs0_0 t) (ms0_1 t) (hs0_1 t) (ms0_2 t) (hs0_2 t) (ms0_3 t) (hs0_3 t) ((hcond0_0 t).mpr h0) (fun h => h1 ((hcond0_1 t).mp h)) (iblk m c 0 t) (iblk m c 1 t) (outsAt0 m c (t.val - 1) (prevLt t)).2).2.2 Set.univ _)
      isplitl [H0]; · iexact H0
      isplitl [H1]; · iexact H1
      isplitl [H2]; · iexists _; iexact H2
      isplitl [H3]; · iexact H3
      iintro ⟨H0, H1, ⟨%e2, H2⟩, H3⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _)
      unfold owns; iexists _; isplitr
      swap; · iexact H3
      ipureintro; rfl
    · rw [outsAt0_B m c t h0 h1]
      dsimp only
      simp only [before0_2_kept m c t h0, before0_3_kept m c t h1]
      unfold out0_B_2 out0_B_3
      iintro ⟨HΦ, Ho, ⟨%d0, H0⟩, ⟨%d1, H1⟩, ⟨%d2, H2⟩, ⟨%d3, H3⟩⟩
      iapply ((kernelRun0_B c (grid0.coords t) (ms0_0 t) (hs0_0 t) (ms0_1 t) (hs0_1 t) (ms0_2 t) (hs0_2 t) (ms0_3 t) (hs0_3 t) (fun h => h0 ((hcond0_0 t).mp h)) (fun h => h1 ((hcond0_1 t).mp h)) (iblk m c 0 t) (iblk m c 1 t) (outsAt0 m c (t.val - 1) (prevLt t)).1 (outsAt0 m c (t.val - 1) (prevLt t)).2).2.2 Set.univ _)
      isplitl [H0]; · iexact H0
      isplitl [H1]; · iexact H1
      isplitl [H2]; · iexact H2
      isplitl [H3]; · iexact H3
      iintro ⟨H0, H1, ⟨%e2, H2⟩, H3⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _ _)
      unfold owns; iexists _; isplitr
      swap; · iexact H3
      ipureintro; rfl

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, nothing faulting, every array of the call at what the
    library computes from the proof data, and every other buffer at what the operations after the call make of them. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and leaves its two argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Kernel.Shared.lean ====
/-
  What the three runs of the body share. The grid is 4 x 4 x 4, point t = 16*p + 4*n + m (batch p, tile n of the first
  cloud, tile m of the second). The body branches twice on the coordinates: on m = 0 (the running row minima start
  afresh) and on n = 0 and m = 0 (the running column minima start afresh). Over the 64 points these are t % 4 = 0 and
  t % 16 = 0. The column minima live in one block of 8192 per batch, of which the body rewrites the slice of 2048 at
  offset 2048*m.
-/
import proofs.«145064_j82746839925382_2_alg».proof.Proof.Gen.Kernel.Frame
import proofs.«145064_j82746839925382_2_alg».proof.Proof.Gen.Kernel.Skeleton
import proofs.«145064_j82746839925382_2_alg».proof.Proof.Gen.Kernel.Points
import proofs.«145064_j82746839925382_2_alg».proof.Proof.Gen.Kernel.Launch
import Idealize.ShloMosaic.Lib.Pipeline.FrameBody
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two branch conditions, decided over the grid -/

/-- The first conditional's condition (the second cloud's tile is the first of its sweep), as the body computes it. -/
abbrev cond0_0 (i : grid0.Coords) : Prop := (Scalar.cmpi .ne (Scalar.extui (Scalar.cmpi .eq (BitVec.ofNat 32 (i 2).val) 0#32)) 0#32) = 1#1
/-- It holds exactly at the points t with t % 4 = 0. -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional's condition (both tiles are the first: a new batch begins). -/
abbrev cond0_1 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- It holds exactly at the points t with t % 16 = 0. -/
theorem hcond0_1 : ∀ t : Fin cfg0.N, cond0_1 (grid0.coords t) ↔ t.val % 16 = 0 :=
  (by decide +kernel : ∀ t : Fin grid0.N, cond0_1 (grid0.coords t) ↔ t.val % 16 = 0)

/-- Where a batch begins the rewritten slice of the column minima is the first one. -/
theorem hoff_first : ∀ t : Fin cfg0.N, t.val % 16 = 0 → k0_off1 (grid0.coords t) = ![0, 0, 0] := by
  decide +kernel

/-- The slice's offset along the long axis is 2048 times the second cloud's tile number. -/
theorem hoff_val : ∀ t : Fin cfg0.N, k0_off1 (grid0.coords t) = ![0, 0, 2048 * (t.val % 4)] := by
  decide +kernel

/-! ## The staging memrefs the body is called with -/

abbrev ms0_0 (t : Fin cfg0.N) : Memref sig .tc .vmem S1x2048x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x8192 .f32 := win0_3.stage (cfg0.slots t 3)
abbrev hs0_3 (t : Fin cfg0.N) : (ms0_3 t).IsWhole := hstage0_3 ((cfg0.slots t 3).cast nbuf0_3)

/-- One staging buffer of each output, through which contents that do not depend on the buffer are stated. -/
abbrev VO0_2 : View sig .tc .vmem S1x1x2048 .f32 := (Memref.whole cc0_stg2_0 : Memref sig .tc .vmem S1x1x2048 .f32).view
abbrev VO0_3 : View sig .tc .vmem S1x1x8192 .f32 := (Memref.whole cc0_stg3_0 : Memref sig .tc .vmem S1x1x8192 .f32).view

end Cert.Kernel.Body

end
-- ==== Proof.Kernel.RunA.lean ====
/-
  The body where a batch begins (both conditionals taken). Both running minima are first set to +inf over their whole
  blocks and then lowered by this tile's minima, so what the two output buffers end with does not depend on what they
  held: each is handed over at anything and handed back with stores that cover it.
-/
import proofs.«145064_j82746839925382_2_alg».proof.Proof.Kernel.Shared

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the two output buffers where a batch begins, with the proof that it runs. -/
noncomputable def kernelRun0_A (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x1x2048 .f32) (harg5 : arg5.IsWhole) (arg6 : Memref sig .tc .vmem S1x1x8192 .f32) (harg6 : arg6.IsWhole) (hc0 : cond0_0 i) (hc1 : cond0_1 i) (hl : k0_off1 i = ![0, 0, 0])
    (x0 : Vec F S1x2048x3 .f32) (x1 : Vec F S1x2048x3 .f32) :
    Σ' (L2 : List (View.Piece (Elt F) S1x1x2048 .f32)), { L3 : List (View.Piece (Elt F) S1x1x8192 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f L3)) -∗ K ⟨⟩))
          ⊢ wp frame (wpE (defs₀ (F := F)) Variants.none c none) E (cc0__chamfer_kernel i arg3 harg3 arg4 harg4 arg5 harg5 arg6 harg6) K } := by
  refine ⟨?_, ?_, fun E K => ?run⟩
  case run =>
    letI : ClosedOff (k0_off1 i) := ⟨![0, 0, 0], hl⟩
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact H3

end Cert.Kernel.Body

end
-- ==== Proof.Kernel.RunB.lean ====
/-
  The body in the middle of a sweep (neither conditional taken). The row minima are lowered over their whole block from
  what the point before left; of the column minima only the slice of this tile is read and rewritten, the rest of the
  block stays as the point before left it.
-/
import proofs.«145064_j82746839925382_2_alg».proof.Proof.Kernel.RunA

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the two output buffers in the middle of a sweep, over the contents `xo2`, `xo3` the
    buffers were handed at, with the proof that it runs. -/
noncomputable def kernelRun0_B (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x1x2048 .f32) (harg5 : arg5.IsWhole) (arg6 : Memref sig .tc .vmem S1x1x8192 .f32) (harg6 : arg6.IsWhole) (hc0 : ¬cond0_0 i) (hc1 : ¬cond0_1 i)
    (x0 : Vec F S1x2048x3 .f32) (x1 : Vec F S1x2048x3 .f32) (xo2 : Vec F S1x1x2048 .f32) (xo3 : Vec F S1x1x8192 .f32) :
    Σ' (L2 : List (View.Piece (Elt F) S1x1x2048 .f32)), { L3 : List (View.Piece (Elt F) S1x1x8192 .f32) //
      ∀ (E : Set ℕ) (K : PUnit → sProp 𝕄),
        iprop(owns (c : Thread nD τ) arg3 fullShare x0 ∗ owns (c : Thread nD τ) arg4 fullShare x1 ∗ owns (c : Thread nD τ) arg5 fullShare xo2 ∗ owns (c : Thread nD τ) arg6 fullShare xo3
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (arg6.view.loc (c : Thread nD τ) ↦[arg6.view.set]{fullShare} arg6.view.writes (Elt F) (harg6.unread xo3) L3)) -∗ K ⟨⟩))
          ⊢ wp frame (wpE (defs₀ (F := F)) Variants.none c none) E (cc0__chamfer_kernel i arg3 harg3 arg4 harg4 arg5 harg5 arg6 harg6) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexact H3

end Cert.Kernel.Body

end
-- ==== Proof.Kernel.RunC.lean ====
/-
  The body where a sweep of the second cloud begins inside a batch (the first conditional taken, the second not). The
  row minima are set to +inf and lowered, so their buffer is handed over at anything; the column minima are lowered on
  this tile's slice over what the point before left.
-/
import proofs.«145064_j82746839925382_2_alg».proof.Proof.Kernel.RunB

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the two output buffers where a sweep begins inside a batch, the column minima over
    the contents `xo3` their buffer was handed at, with the proof that it runs. -/
noncomputable def kernelRun0_C (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x1x2048 .f32) (harg5 : arg5.IsWhole) (arg6 : Memref sig .tc .vmem S1x1x8192 .f32) (harg6 : arg6.IsWhole) (hc0 : cond0_0 i) (hc1 : ¬cond0_1 i)
    (x0 : Vec F S1x2048x3 .f32) (x1 : Vec F S1x2048x3 .f32) (xo3 : Vec F S1x1x8192 .f32) :
    Σ' (L2 : List (View.Piece (Elt F) S1x1x2048 .f32)), { L3 : List (View.Piece (Elt F) S1x1x8192 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xo3
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (arg6.view.loc (c : Thread nD τ) ↦[arg6.view.set]{fullShare} arg6.view.writes (Elt F) (harg6.unread xo3) L3)) -∗ K ⟨⟩))
          ⊢ wp frame (wpE (defs₀ (F := F)) Variants.none c none) E (cc0__chamfer_kernel i arg3 harg3 arg4 harg4 arg5 harg5 arg6 harg6) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, Hk⟩
    obtain rfl := harg3.eq_unread hf0; obtain rfl := harg4.eq_unread hf1
    obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexact H3

end Cert.Kernel.Body

end
-- ==== Proof.Kernel.Frame.lean ====
/-
  The frame of the program: the proof data of its one pipelined call, the body's obligation at every grid point, the run.

  What the two output buffers hold after each point is told by recursion on the point. Where a batch begins both are
  rebuilt from nothing; where a sweep begins inside a batch the row minima are rebuilt and the column minima continue
  from the point before; elsewhere both continue. The row minima's block is written back after the last tile of a
  sweep (t % 4 = 3), the column minima's after the last point of a batch (t % 16 = 15); between write-backs a buffer
  holds what the point before left in it.
-/
import proofs.«145064_j82746839925382_2_alg».proof.Proof.Kernel.RunC
import Idealize.ShloMosaic.Lib.Pipeline.FrameSuffix
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Stores that cover a block -/

/-- Where a batch begins the row minima's stores cover their block. -/
theorem cover0_A_2 (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x1x2048 .f32) (harg5 : arg5.IsWhole) (arg6 : Memref sig .tc .vmem S1x1x8192 .f32) (harg6 : arg6.IsWhole) (hc0 : cond0_0 i) (hc1 : cond0_1 i) (hl : k0_off1 i = ![0, 0, 0]) (x0 : Vec F S1x2048x3 .f32) (x1 : Vec F S1x2048x3 .f32) (y : S1x1x2048.Idx) :
    ∃ pc ∈ (kernelRun0_A c i arg3 harg3 arg4 harg4 arg5 harg5 arg6 harg6 hc0 hc1 hl x0 x1).1, y ∈ pc.1.set :=
  View.cover_of_tiledL (kernelRun0_A c i arg3 harg3 arg4 harg4 arg5 harg5 arg6 harg6 hc0 hc1 hl x0 x1).1 S1x1x2048.size (by sl_kernel_rfl) y

/-- In the middle of a sweep the row minima's one store covers their block. -/
theorem cover0_B_2 (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x1x2048 .f32) (harg5 : arg5.IsWhole) (arg6 : Memref sig .tc .vmem S1x1x8192 .f32) (harg6 : arg6.IsWhole) (hc0 : ¬cond0_0 i) (hc1 : ¬cond0_1 i) (x0 : Vec F S1x2048x3 .f32) (x1 : Vec F S1x2048x3 .f32) (xo2 : Vec F S1x1x2048 .f32) (xo3 : Vec F S1x1x8192 .f32) (y : S1x1x2048.Idx) :
    ∃ pc ∈ (kernelRun0_B c i arg3 harg3 arg4 harg4 arg5 harg5 arg6 harg6 hc0 hc1 x0 x1 xo2 xo3).1, y ∈ pc.1.set :=
  View.cover_of_tiledL (kernelRun0_B c i arg3 harg3 arg4 harg4 arg5 harg5 arg6 harg6 hc0 hc1 x0 x1 xo2 xo3).1 S1x1x2048.size (by sl_kernel_rfl) y

/-- Where a sweep begins inside a batch the row minima's stores cover their block. -/
theorem cover0_C_2 (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x1x2048 .f32) (harg5 : arg5.IsWhole) (arg6 : Memref sig .tc .vmem S1x1x8192 .f32) (harg6 : arg6.IsWhole) (hc0 : cond0_0 i) (hc1 : ¬cond0_1 i) (x0 : Vec F S1x2048x3 .f32) (x1 : Vec F S1x2048x3 .f32) (xo3 : Vec F S1x1x8192 .f32) (y : S1x1x2048.Idx) :
    ∃ pc ∈ (kernelRun0_C c i arg3 harg3 arg4 harg4 arg5 harg5 arg6 harg6 hc0 hc1 x0 x1 xo3).1, y ∈ pc.1.set :=
  View.cover_of_tiledL (kernelRun0_C c i arg3 harg3 arg4 harg4 arg5 harg5 arg6 harg6 hc0 hc1 x0 x1 xo3).1 S1x1x2048.size (by sl_kernel_rfl) y

/-- Where a batch begins the column minima's first store is of the whole block, so the stores cover it. -/
theorem cover0_A_3 (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x1x2048 .f32) (harg5 : arg5.IsWhole) (arg6 : Memref sig .tc .vmem S1x1x8192 .f32) (harg6 : arg6.IsWhole) (hc0 : cond0_0 i) (hc1 : cond0_1 i) (hl : k0_off1 i = ![0, 0, 0]) (x0 : Vec F S1x2048x3 .f32) (x1 : Vec F S1x2048x3 .f32) (y : S1x1x8192.Idx) :
    ∃ pc ∈ (kernelRun0_A c i arg3 harg3 arg4 harg4 arg5 harg5 arg6 harg6 hc0 hc1 hl x0 x1).2.1, y ∈ pc.1.set := by
  unfold kernelRun0_A; dsimp only; sl_unfold_words
  refine ⟨_, List.mem_cons_of_mem _ (List.mem_singleton_self _), ?_⟩
  exact View.mem_set_unit_zero (S := S1x1x8192) (off := ![0, 0, 0]) (by funext a; fin_cases a <;> rfl) Facts₀.inb_S1x1x8192_S1x1x8192_0_0_0 y

/-! ## What each case leaves in the two output buffers -/

def out0_A_2 (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x1x2048 .f32) (harg5 : arg5.IsWhole) (arg6 : Memref sig .tc .vmem S1x1x8192 .f32) (harg6 : arg6.IsWhole) (hc0 : cond0_0 i) (hc1 : cond0_1 i) (hl : k0_off1 i = ![0, 0, 0]) (x0 : Vec F S1x2048x3 .f32) (x1 : Vec F S1x2048x3 .f32) : Vec F S1x1x2048 .f32 :=
  VO0_2.read (Elt F) (VO0_2.writes (Elt F) VO0_2.junk (kernelRun0_A c i arg3 harg3 arg4 harg4 arg5 harg5 arg6 harg6 hc0 hc1 hl x0 x1).1)
def out0_A_3 (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x1x2048 .f32) (harg5 : arg5.IsWhole) (arg6 : Memref sig .tc .vmem S1x1x8192 .f32) (harg6 : arg6.IsWhole) (hc0 : cond0_0 i) (hc1 : cond0_1 i) (hl : k0_off1 i = ![0, 0, 0]) (x0 : Vec F S1x2048x3 .f32) (x1 : Vec F S1x2048x3 .f32) : Vec F S1x1x8192 .f32 :=
  VO0_3.read (Elt F) (VO0_3.writes (Elt F) VO0_3.junk (kernelRun0_A c i arg3 harg3 arg4 harg4 arg5 harg5 arg6 harg6 hc0 hc1 hl x0 x1).2.1)
def out0_B_2 (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x1x2048 .f32) (harg5 : arg5.IsWhole) (arg6 : Memref sig .tc .vmem S1x1x8192 .f32) (harg6 : arg6.IsWhole) (hc0 : ¬cond0_0 i) (hc1 : ¬cond0_1 i) (x0 : Vec F S1x2048x3 .f32) (x1 : Vec F S1x2048x3 .f32) (xo2 : Vec F S1x1x2048 .f32) (xo3 : Vec F S1x1x8192 .f32) : Vec F S1x1x2048 .f32 :=
  VO0_2.read (Elt F) (VO0_2.writes (Elt F) VO0_2.junk (kernelRun0_B c i arg3 harg3 arg4 harg4 arg5 harg5 arg6 harg6 hc0 hc1 x0 x1 xo2 xo3).1)
/-- The column minima's block after a point in the middle of a sweep: the one slice rewritten over what it held. -/
def out0_B_3 (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x1x2048 .f32) (harg5 : arg5.IsWhole) (arg6 : Memref sig .tc .vmem S1x1x8192 .f32) (harg6 : arg6.IsWhole) (hc0 : ¬cond0_0 i) (hc1 : ¬cond0_1 i) (x0 : Vec F S1x2048x3 .f32) (x1 : Vec F S1x2048x3 .f32) (xo2 : Vec F S1x1x2048 .f32) (xo3 : Vec F S1x1x8192 .f32) : Vec F S1x1x8192 .f32 :=
  arg6.view.read (Elt F) (arg6.view.writes (Elt F) (harg6.unread xo3) (kernelRun0_B c i arg3 harg3 arg4 harg4 arg5 harg5 arg6 harg6 hc0 hc1 x0 x1 xo2 xo3).2.1)
def out0_C_2 (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x1x2048 .f32) (harg5 : arg5.IsWhole) (arg6 : Memref sig .tc .vmem S1x1x8192 .f32) (harg6 : arg6.IsWhole) (hc0 : cond0_0 i) (hc1 : ¬cond0_1 i) (x0 : Vec F S1x2048x3 .f32) (x1 : Vec F S1x2048x3 .f32) (xo3 : Vec F S1x1x8192 .f32) : Vec F S1x1x2048 .f32 :=
  VO0_2.read (Elt F) (VO0_2.writes (Elt F) VO0_2.junk (kernelRun0_C c i arg3 harg3 arg4 harg4 arg5 harg5 arg6 harg6 hc0 hc1 x0 x1 xo3).1)
def out0_C_3 (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x1x2048 .f32) (harg5 : arg5.IsWhole) (arg6 : Memref sig .tc .vmem S1x1x8192 .f32) (harg6 : arg6.IsWhole) (hc0 : cond0_0 i) (hc1 : ¬cond0_1 i) (x0 : Vec F S1x2048x3 .f32) (x1 : Vec F S1x2048x3 .f32) (xo3 : Vec F S1x1x8192 .f32) : Vec F S1x1x8192 .f32 :=
  arg6.view.read (Elt F) (arg6.view.writes (Elt F) (harg6.unread xo3) (kernelRun0_C c i arg3 harg3 arg4 harg4 arg5 harg5 arg6 harg6 hc0 hc1 x0 x1 xo3).2.1)

/-! ## What the output buffers hold after each point -/

/-- The running minima, point by point: the row minima's block and the column minima's block after the body at `n`. -/
def outsAt0 (c : Dev nD) : (n : ℕ) → n < cfg0.N → Vec F S1x1x2048 .f32 × Vec F S1x1x8192 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (by have := (Nat.zero_mod 16); (try dsimp only at this ⊢) <;> omega)) ((hcond0_1 ⟨0, hn⟩).mpr (Nat.zero_mod 16)) (hoff_first ⟨0, hn⟩ (Nat.zero_mod 16)) (iblk m c 0 ⟨0, hn⟩) (iblk m c 1 ⟨0, hn⟩),
              out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (by have := (Nat.zero_mod 16); (try dsimp only at this ⊢) <;> omega)) ((hcond0_1 ⟨0, hn⟩).mpr (Nat.zero_mod 16)) (hoff_first ⟨0, hn⟩ (Nat.zero_mod 16)) (iblk m c 0 ⟨0, hn⟩) (iblk m c 1 ⟨0, hn⟩))
  | n + 1, hn =>
    if h1 : (n + 1) % 16 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr (by have := h1; (try dsimp only at this ⊢) <;> omega)) ((hcond0_1 ⟨n + 1, hn⟩).mpr h1) (hoff_first ⟨n + 1, hn⟩ h1) (iblk m c 0 ⟨n + 1, hn⟩) (iblk m c 1 ⟨n + 1, hn⟩),
       out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr (by have := h1; (try dsimp only at this ⊢) <;> omega)) ((hcond0_1 ⟨n + 1, hn⟩).mpr h1) (hoff_first ⟨n + 1, hn⟩ h1) (iblk m c 0 ⟨n + 1, hn⟩) (iblk m c 1 ⟨n + 1, hn⟩))
    else if h0 : (n + 1) % 4 = 0 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (outsAt0 c n (Nat.lt_of_succ_lt hn)).2,
       out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (outsAt0 c n (Nat.lt_of_succ_lt hn)).2)
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2,
       out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2)

/-- The point before `t`, as an index below the grid's size. -/
abbrev prevLt (t : Fin cfg0.N) : t.val - 1 < cfg0.N := Nat.lt_of_le_of_lt (Nat.sub_le _ _) t.isLt

/-- At a point where a batch begins. -/
theorem outsAt0_A (c : Dev nD) (t : Fin cfg0.N) (h1 : t.val % 16 = 0) :
    outsAt0 m c t.val t.isLt = (out0_A_2 c (grid0.coords t) (ms0_0 t) (hs0_0 t) (ms0_1 t) (hs0_1 t) (ms0_2 t) (hs0_2 t) (ms0_3 t) (hs0_3 t) ((hcond0_0 t).mpr (by have := h1; (try dsimp only at this ⊢) <;> omega)) ((hcond0_1 t).mpr h1) (hoff_first t h1) (iblk m c 0 t) (iblk m c 1 t),
      out0_A_3 c (grid0.coords t) (ms0_0 t) (hs0_0 t) (ms0_1 t) (hs0_1 t) (ms0_2 t) (hs0_2 t) (ms0_3 t) (hs0_3 t) ((hcond0_0 t).mpr (by have := h1; (try dsimp only at this ⊢) <;> omega)) ((hcond0_1 t).mpr h1) (hoff_first t h1) (iblk m c 0 t) (iblk m c 1 t)) := by
  obtain ⟨n, hn⟩ := t
  cases n with
  | zero => exact rfl
  | succ n => exact (dif_pos h1).trans rfl

/-- At a point where a sweep begins inside a batch. -/
theorem outsAt0_C (c : Dev nD) (t : Fin cfg0.N) (h0 : t.val % 4 = 0) (h1 : ¬t.val % 16 = 0) :
    outsAt0 m c t.val t.isLt = (out0_C_2 c (grid0.coords t) (ms0_0 t) (hs0_0 t) (ms0_1 t) (hs0_1 t) (ms0_2 t) (hs0_2 t) (ms0_3 t) (hs0_3 t) ((hcond0_0 t).mpr h0) (fun h => h1 ((hcond0_1 t).mp h)) (iblk m c 0 t) (iblk m c 1 t) (outsAt0 m c (t.val - 1) (prevLt t)).2,
      out0_C_3 c (grid0.coords t) (ms0_0 t) (hs0_0 t) (ms0_1 t) (hs0_1 t) (ms0_2 t) (hs0_2 t) (ms0_3 t) (hs0_3 t) ((hcond0_0 t).mpr h0) (fun h => h1 ((hcond0_1 t).mp h)) (iblk m c 0 t) (iblk m c 1 t) (outsAt0 m c (t.val - 1) (prevLt t)).2) := by
  obtain ⟨n, hn⟩ := t
  cases n with
  | zero => exact absurd (Nat.zero_mod _) h1
  | succ n => exact ((dif_neg h1).trans (dif_pos h0)).trans rfl

/-- At a point in the middle of a sweep. -/
theorem outsAt0_B (c : Dev nD) (t : Fin cfg0.N) (h0 : ¬t.val % 4 = 0) (h1 : ¬t.val % 16 = 0) :
    outsAt0 m c t.val t.isLt = (out0_B_2 c (grid0.coords t) (ms0_0 t) (hs0_0 t) (ms0_1 t) (hs0_1 t) (ms0_2 t) (hs0_2 t) (ms0_3 t) (hs0_3 t) (fun h => h0 ((hcond0_0 t).mp h)) (fun h => h1 ((hcond0_1 t).mp h)) (iblk m c 0 t) (iblk m c 1 t) (outsAt0 m c (t.val - 1) (prevLt t)).1 (outsAt0 m c (t.val - 1) (prevLt t)).2,
      out0_B_3 c (grid0.coords t) (ms0_0 t) (hs0_0 t) (ms0_1 t) (hs0_1 t) (ms0_2 t) (hs0_2 t) (ms0_3 t) (hs0_3 t) (fun h => h0 ((hcond0_0 t).mp h)) (fun h => h1 ((hcond0_1 t).mp h)) (iblk m c 0 t) (iblk m c 1 t) (outsAt0 m c (t.val - 1) (prevLt t)).1 (outsAt0 m c (t.val - 1) (prevLt t)).2) := by
  obtain ⟨n, hn⟩ := t
  cases n with
  | zero => exact absurd (Nat.zero_mod _) h1
  | succ n => exact ((dif_neg h1).trans (dif_neg h0)).trans rfl

/-! ## The proof data -/

/-- The arrays as the call finds them; after the body each input's buffer at its block, the outputs' at the running
    minima; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- Inside a sweep the row minima's buffer holds what the point before left: it was not written back between. -/
theorem before0_2_kept (c : Dev nD) (t : Fin cfg0.N) (h0 : ¬t.val % 4 = 0) (d) :
    (dats m 0 c).before 2 t d = (outsAt0 m c (t.val - 1) (prevLt t)).1 := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dats]

/-- Inside a batch the column minima's buffer holds what the point before left. -/
theorem before0_3_kept (c : Dev nD) (t : Fin cfg0.N) (h1 : ¬t.val % 16 = 0) (d) :
    (dats m 0 c).before 3 t d = (outsAt0 m c (t.val - 1) (prevLt t)).2 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point: which case the point is in is read off its number; a buffer that continues from the point
    before holds what that point left; the case's run applies; stores that cover a block name its contents whatever
    it held. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 64 := lt_of_lt_of_eq t.isLt (show cfg0.N = 64 from N_0)
  by_cases h1 : t.val % 16 = 0
  · rw [outsAt0_A m c t h1]
    dsimp only
    unfold out0_A_2 out0_A_3
    iintro ⟨HΦ, Ho, ⟨%d0, H0⟩, ⟨%d1, H1⟩, ⟨%d2, H2⟩, ⟨%d3, H3⟩⟩
    iapply ((kernelRun0_A c (grid0.coords t) (ms0_0 t) (hs0_0 t) (ms0_1 t) (hs0_1 t) (ms0_2 t) (hs0_2 t) (ms0_3 t) (hs0_3 t) ((hcond0_0 t).mpr (by have := h1; (try dsimp only at this ⊢) <;> omega)) ((hcond0_1 t).mpr h1) (hoff_first t h1) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _)
    unfold owns; iexists _; isplitr
    swap; · iexact H3
    ipureintro; exact View.read_writes_of_cover _ _ _ _ _ (cover0_A_3 c _ _ _ _ _ _ _ _ _ _ _ _ _ _)
  · by_cases h0 : t.val % 4 = 0
    · rw [outsAt0_C m c t h0 h1]
      dsimp only
      simp only [before0_3_kept m c t h1]
      unfold out0_C_2 out0_C_3
      iintro ⟨HΦ, Ho, ⟨%d0, H0⟩, ⟨%d1, H1⟩, ⟨%d2, H2⟩, ⟨%d3, H3⟩⟩
      iapply ((kernelRun0_C c (grid0.coords t) (ms0_0 t) (hs0_0 t) (ms0_1 t) (hs0_1 t) (ms0_2 t) (hs0_2 t) (ms0_3 t) (hs0_3 t) ((hcond0_0 t).mpr h0) (fun h => h1 ((hcond0_1 t).mp h)) (iblk m c 0 t) (iblk m c 1 t) (outsAt0 m c (t.val - 1) (prevLt t)).2).2.2 Set.univ _)
      isplitl [H0]; · iexact H0
      isplitl [H1]; · iexact H1
      isplitl [H2]; · iexists _; iexact H2
      isplitl [H3]; · iexact H3
      iintro ⟨H0, H1, ⟨%e2, H2⟩, H3⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _)
      unfold owns; iexists _; isplitr
      swap; · iexact H3
      ipureintro; rfl
    · rw [outsAt0_B m c t h0 h1]
      dsimp only
      simp only [before0_2_kept m c t h0, before0_3_kept m c t h1]
      unfold out0_B_2 out0_B_3
      iintro ⟨HΦ, Ho, ⟨%d0, H0⟩, ⟨%d1, H1⟩, ⟨%d2, H2⟩, ⟨%d3, H3⟩⟩
      iapply ((kernelRun0_B c (grid0.coords t) (ms0_0 t) (hs0_0 t) (ms0_1 t) (hs0_1 t) (ms0_2 t) (hs0_2 t) (ms0_3 t) (hs0_3 t) (fun h => h0 ((hcond0_0 t).mp h)) (fun h => h1 ((hcond0_1 t).mp h)) (iblk m c 0 t) (iblk m c 1 t) (outsAt0 m c (t.val - 1) (prevLt t)).1 (outsAt0 m c (t.val - 1) (prevLt t)).2).2.2 Set.univ _)
      isplitl [H0]; · iexact H0
      isplitl [H1]; · iexact H1
      isplitl [H2]; · iexact H2
      isplitl [H3]; · iexact H3
      iintro ⟨H0, H1, ⟨%e2, H2⟩, H3⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _ _)
      unfold owns; iexists _; isplitr
      swap; · iexact H3
      ipureintro; rfl

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, nothing faulting, every array of the call at what the
    library computes from the proof data, and every other buffer at what the operations after the call make of them. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and leaves its two argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.Spec.lean ====
/-
  The mathematics of the two programs, with no program in sight.

  Two clouds of points in three-space, `a` and `b`, four batches of 8192 points each. For a point `a[p,n]` and a
  point `b[p,q]` of the same batch the squared distance is  |a|² + |b|² − 2·⟨a,b⟩,  clamped below at zero. One program
  folds the factor −2 into `a` before the inner product (`sqK`), the other multiplies the inner product by 2 and
  subtracts (`sqR`); over finite coordinates these are one real number. `nearB` is, for each point of `a`, the least
  squared distance to a point of `b`; `nearA` the same with the roles exchanged. The result is the mean of the square
  roots of the one plus the mean of the square roots of the other, halved (`tail`).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- Four batches of 8192 points with three coordinates. -/
abbrev Pts : Shape := ⟨3, ![4, 8192, 3]⟩
/-- One number per batch and point. -/
abbrev Dists : Shape := ⟨2, ![4, 8192]⟩
/-- A single number. -/
abbrev Scal : Shape := ⟨0, ![]⟩

/-- The squared length of point `n` of batch `p`. -/
def normSq (a : Pts.Idx → EReal) (p : Fin 4) (n : Fin 8192) : EReal :=
  ∑ k : Fin 3, a (ix3 p n k) * a (ix3 p n k)

/-- The clamped squared distance with the factor −2 folded into the first point's coordinates. -/
def sqK (a b : Pts.Idx → EReal) (p : Fin 4) (n q : Fin 8192) : EReal :=
  max (normSq a p n + normSq b p q
        + ∑ k : Fin 3, (a (ix3 p n k) * Ideal.ofBits .f32 0xC0000000#32) * b (ix3 p q k))
      (Ideal.ofBits .f32 0x00000000#32)

/-- The clamped squared distance with twice the inner product subtracted. -/
def sqR (a b : Pts.Idx → EReal) (p : Fin 4) (n q : Fin 8192) : EReal :=
  max ((normSq a p n + normSq b p q)
        - Ideal.ofBits .f32 0x40000000#32 * ∑ k : Fin 3, a (ix3 p n k) * b (ix3 p q k))
      (Ideal.ofBits .f32 0x00000000#32)

/-- For each point of `a`, the least squared distance to a point of `b` of its batch. -/
def nearB (a b : Pts.Idx → EReal) : Dists.Idx → EReal :=
  fun j => ⨅ q : Fin 8192, sqK a b (j 0) (j 1) q

/-- For each point of `b`, the least squared distance to a point of `a` of its batch. -/
def nearA (a b : Pts.Idx → EReal) : Dists.Idx → EReal :=
  fun j => ⨅ n : Fin 8192, sqK a b (j 0) n (j 1)

/-- The same two minima over the subtracting arrangement. -/
def nearBR (a b : Pts.Idx → EReal) : Dists.Idx → EReal :=
  fun j => ⨅ q : Fin 8192, sqR a b (j 0) (j 1) q
def nearAR (a b : Pts.Idx → EReal) : Dists.Idx → EReal :=
  fun j => ⨅ n : Fin 8192, sqR a b (j 0) n (j 1)

/-- From the two arrays of least squared distances to the result: the mean of the roots of each, added, halved.
    Both programs end in exactly these operations, so the term is never opened. -/
def tail (hr : Dists.ReducesTo [0, 1] Scal) (hs : 0 < Scal.numel) (d1 d2 : FVec Ideal Dists .f32) : FVec Ideal Scal .f32 :=
  Host.divf
    (addf
      (Host.divf (Host.reduceAdd (F := Ideal) (Host.sqrt (F := Ideal) d1) (constant (F := Ideal) Scal .f32 0x00000000#32) hr hs)
        (constant (F := Ideal) Scal .f32 0x47000000#32))
      (Host.divf (Host.reduceAdd (F := Ideal) (Host.sqrt (F := Ideal) d2) (constant (F := Ideal) Scal .f32 0x00000000#32) hr hs)
        (constant (F := Ideal) Scal .f32 0x47000000#32)))
    (constant (F := Ideal) Scal .f32 0x40000000#32)

end Cert.Spec

end
-- ==== Proof.RefSide.lean ====
/-
  The reference read back: its two arrays of least squared distances are `nearBR` and `nearAR` of its arguments, and its
  result is `tail` of them.
-/
import proofs.«145064_j82746839925382_2_alg».proof.Proof.Gen.ReferenceIdeal.Read
import proofs.«145064_j82746839925382_2_alg».proof.Proof.Spec

noncomputable section

namespace Cert.RefSide

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The word 0x7F800000 is +∞ on the extended reals. -/
theorem ofBits_inf : Ideal.ofBits .f32 0x7F800000#32 = (⊤ : EReal) := by
  simp [Ideal.ofBits, Ideal.ieee]

/-- Folding the binary minimum from +∞ over every coordinate of an axis gives the infimum over that axis: both are the
    greatest lower bound of the same family. -/
theorem fold_min_top_eq_iInf {n : Nat} (g : Fin n → EReal) :
    (Finset.univ : Finset (Fin n)).fold (FloatOps.minimumf (F := Ideal) (φ := .f32)) (⊤ : EReal) g = ⨅ k, g k := by
  refine eq_of_forall_le_iff fun c => ?_
  rw [le_iInf_iff]
  have key : ∀ S : Finset (Fin n),
      c ≤ S.fold (FloatOps.minimumf (F := Ideal) (φ := .f32)) (⊤ : EReal) g ↔ ∀ k ∈ S, c ≤ g k := by
    intro S
    induction S using Finset.cons_induction with
    | empty => simp
    | cons a S ha ih =>
      rw [Finset.fold_cons, Ideal.minimumf_def, le_min_iff, ih, Finset.forall_mem_cons]
  simpa using key Finset.univ

/-- The clamped squared distance the reference computes at (p, n, q) is `sqR`: its two squared lengths are sums of
    three squares from zero, its inner product a sum of three products, and the broadcasts only copy. -/
theorem sq_at (x0 x1 : (⟨S4x8192x3, .f32⟩ : BufTy).Contents (Elt Ideal)) (p : Fin 4) (n q : Fin 8192) :
    val_main_v14 (F := Ideal) x0 x1 (ix3 p n q) = Cert.Spec.sqR x0 x1 p n q := by
  have e1 : ∀ k : Fin 3, idx_main_v1 (idx_main_v5 (idx_main_v7 (ix3 p n q))) k = ix3 p n k := fun k =>
    funext fun a => Fin.ext (by match a with | ⟨0, _⟩ => rfl | ⟨1, _⟩ => rfl | ⟨2, _⟩ => rfl)
  have e3 : ∀ k : Fin 3, idx_main_v3 (idx_main_v6 (idx_main_v8 (ix3 p n q))) k = ix3 p q k := fun k =>
    funext fun a => Fin.ext (by match a with | ⟨0, _⟩ => rfl | ⟨1, _⟩ => rfl | ⟨2, _⟩ => rfl)
  have el : ∀ k : Fin 3, lidx_main_v4 (ix3 p n q) k = ix3 p n k := fun k =>
    funext fun a => Fin.ext (by match a with | ⟨0, _⟩ => rfl | ⟨1, _⟩ => rfl | ⟨2, _⟩ => rfl)
  have er : ∀ k : Fin 3, ridx_main_v4 (ix3 p n q) k = ix3 p q k := fun k =>
    funext fun a => Fin.ext (by match a with | ⟨0, _⟩ => rfl | ⟨1, _⟩ => rfl | ⟨2, _⟩ => rfl)
  rw [val_main_v14_apply, val_main_v12_apply, val_main_v13_apply, val_main_cst_2_apply, val_main_v9_apply,
    val_main_v11_apply, val_main_v7_apply, val_main_v5_apply, val_main_v1_apply, val_main_v8_apply, val_main_v6_apply,
    val_main_v3_apply, val_main_v10_apply, val_main_cst_1_apply, val_main_v4_apply, val_main_cst_apply,
    val_main_cst_0_apply]
  simp only [val_main_v0_apply, val_main_v2_apply, e1, e3, el, er, Ideal.maximumf_def, Ideal.subf_def, Ideal.addf_def,
    Ideal.mulf_def, Ideal.ofBits_def, Ideal.ofBits_zero_f32, zero_add, Cert.Spec.sqR, Cert.Spec.normSq]

/-- The reference's minimum over its last axis is, for each point of the first cloud, the least clamped squared distance
    to a point of the second: the fold of the binary minimum from +∞ over the axis's coordinates is the infimum. -/
theorem dist1_eq (x0 x1 : (⟨S4x8192x3, .f32⟩ : BufTy).Contents (Elt Ideal)) :
    val_main_v15 (F := Ideal) x0 x1 = Cert.Spec.nearBR x0 x1 := by
  funext j
  have h : S4x8192x8192.Reduces [2] S4x8192 := by decide
  unfold val_main_v15
  rw [Host.reduce_eq_fold_single _ _ _ reducesTo_S4x8192x8192_S4x8192_d2 h h_S_ j, val_main_cst_3_apply,
    Ideal.ofBits_def, ofBits_inf]
  refine (fold_min_top_eq_iInf _).trans (iInf_congr fun q => ?_)
  have e : h.lift j q = ix3 (j 0) (j 1) q :=
    funext fun a => Fin.ext (by match a with | ⟨0, _⟩ => rfl | ⟨1, _⟩ => rfl | ⟨2, _⟩ => rfl)
  show val_main_v14 (F := Ideal) x0 x1 (h.lift j q) = _
  rw [e]
  exact sq_at x0 x1 (j 0) (j 1) q

/-- The reference's minimum over its middle axis is, for each point of the second cloud, the least clamped squared
    distance to a point of the first. -/
theorem dist2_eq (x0 x1 : (⟨S4x8192x3, .f32⟩ : BufTy).Contents (Elt Ideal)) :
    val_main_v16 (F := Ideal) x0 x1 = Cert.Spec.nearAR x0 x1 := by
  funext j
  have h : S4x8192x8192.Reduces [1] S4x8192 := by decide
  unfold val_main_v16
  rw [Host.reduce_eq_fold_single _ _ _ reducesTo_S4x8192x8192_S4x8192_d1 h h_S_ j, val_main_cst_4_apply,
    Ideal.ofBits_def, ofBits_inf]
  refine (fold_min_top_eq_iInf _).trans (iInf_congr fun n => ?_)
  have e : h.lift j n = ix3 (j 0) n (j 1) :=
    funext fun a => Fin.ext (by match a with | ⟨0, _⟩ => rfl | ⟨1, _⟩ => rfl | ⟨2, _⟩ => rfl)
  show val_main_v14 (F := Ideal) x0 x1 (h.lift j n) = _
  rw [e]
  exact sq_at x0 x1 (j 0) n (j 1)

/-- The reference's run: every weakly fair execution terminates with its result at `tail` of the two arrays of least
    squared distances of its arguments, and the arguments unchanged. The run's composed term is, operation for
    operation, `tail` of the two minima; those are `nearBR` and `nearAR`. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24)
          = Cert.Spec.tail reducesTo_S4x8192_S_d0_1 h_S_
              (Cert.Spec.nearBR (m ((c.tc : Thread nD τ).loc main_arg0)) (m ((c.tc : Thread nD τ).loc main_arg1)))
              (Cert.Spec.nearAR (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
      rw [← dist1_eq, ← dist2_eq]; rfl), (h c).2⟩)
    (Cert.ReferenceIdeal.Value.run (F := Ideal) m ρ)

end Cert.RefSide

end
-- ==== Proof.Law.lean ====
/-
  The algebraic law joining the two arrangements of the squared distance.

  Over real coordinates,  |a|² + |b|² + Σ_k (a_k · (−2)) · b_k  and  (|a|² + |b|²) − 2 · Σ_k a_k · b_k  are the same
  real number; the clamp at zero is applied to both alike, and the minima over either axis follow termwise.
-/
import proofs.«145064_j82746839925382_2_alg».proof.Proof.Spec

noncomputable section

namespace Cert.Law

open Idealize.ShloMosaic Idealize.ShloMosaic.ValueIdx Cert.Spec

/-- The pattern `0xC0000000` denotes the real `−2`. -/
theorem ofBits_neg_two : Ideal.ofBits .f32 0xC0000000#32 = ((-2 : ℝ) : EReal) := by
  simp [Ideal.ofBits, Ideal.ieee, -EReal.coe_mul]; norm_num

/-- The pattern `0x40000000` denotes the real `2`. -/
theorem ofBits_two : Ideal.ofBits .f32 0x40000000#32 = ((2 : ℝ) : EReal) := by
  simp [Ideal.ofBits, Ideal.ieee, -EReal.coe_mul]; norm_num

/-- Over real coordinates the two unclamped squared distances are one real number. -/
theorem core_eq (x y : Fin 3 → ℝ) :
    ((∑ k : Fin 3, ((x k : ℝ) : EReal) * (x k : EReal)) + (∑ k : Fin 3, ((y k : ℝ) : EReal) * (y k : EReal))
        + ∑ k : Fin 3, (((x k : ℝ) : EReal) * ((-2 : ℝ) : EReal)) * ((y k : ℝ) : EReal))
      = ((∑ k : Fin 3, ((x k : ℝ) : EReal) * (x k : EReal)) + (∑ k : Fin 3, ((y k : ℝ) : EReal) * (y k : EReal)))
        - ((2 : ℝ) : EReal) * ∑ k : Fin 3, ((x k : ℝ) : EReal) * ((y k : ℝ) : EReal) := by
  simp only [Fin.sum_univ_three, ← EReal.coe_mul, ← EReal.coe_add, ← EReal.coe_sub]
  congr 1
  ring

/-- With every coordinate real, the subtracting arrangement equals the folded one. -/
theorem sq_eq (a b : Pts.Idx → EReal) (ha : ∀ i, ∃ x : ℝ, a i = (x : EReal)) (hb : ∀ i, ∃ x : ℝ, b i = (x : EReal))
    (p : Fin 4) (n q : Fin 8192) : sqR a b p n q = sqK a b p n q := by
  choose x hx using ha
  choose y hy using hb
  unfold sqR sqK normSq
  rw [ofBits_neg_two, ofBits_two]
  simp only [hx, hy]
  exact congrArg (fun t => max t (Ideal.ofBits .f32 0x00000000#32))
    (core_eq (fun k => x (ix3 p n k)) (fun k => y (ix3 p q k))).symm

/-- The least squared distance from each point of `a`, in either arrangement. -/
theorem nearBR_eq (a b : Pts.Idx → EReal) (ha : ∀ i, ∃ x : ℝ, a i = (x : EReal)) (hb : ∀ i, ∃ x : ℝ, b i = (x : EReal)) :
    nearBR a b = nearB a b := by
  funext j
  exact iInf_congr fun q => sq_eq a b ha hb (j 0) (j 1) q

/-- The least squared distance from each point of `b`, in either arrangement. -/
theorem nearAR_eq (a b : Pts.Idx → EReal) (ha : ∀ i, ∃ x : ℝ, a i = (x : EReal)) (hb : ∀ i, ∃ x : ℝ, b i = (x : EReal)) :
    nearAR a b = nearA a b := by
  funext j
  exact iInf_congr fun n => sq_eq a b ha hb (j 0) n (j 1)

end Cert.Law

end
-- ==== Proof.Finite.lean ====
/-
  From the precondition to the reals.

  The precondition says that both argument arrays pass the test  |x| < +∞  at every entry. An extended real whose
  absolute value  max x (−x)  lies strictly below  +∞  is neither  +∞  nor  −∞,  hence a real number.
-/
import proofs.«145064_j82746839925382_2_alg».proof.Defs
import proofs.«145064_j82746839925382_2_alg».proof.Proof.Gen.Pre_finite_inputs
import Idealize.ShloMosaic.Lib.ReduceAll
import Idealize.ShloMosaic.Lib.ValueIdx

noncomputable section

namespace Cert.Finite

open Idealize.ShloMosaic Idealize.SL.Sem Idealize.ShloMosaic.ValueIdx

/-- The pattern `0x7F800000` denotes `+∞`. -/
theorem ofBits_inf : Ideal.ofBits .f32 0x7F800000#32 = (⊤ : EReal) := by
  simp [Ideal.ofBits, Ideal.ieee]

/-- An extended real whose absolute value is strictly below `+∞` is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

instance : Subsingleton Cert.Pre_finite_inputs.S_.Idx := ⟨fun a b => funext fun d => d.elim0⟩

/-- One entry passing the printed test is a real number. -/
theorem real_of_test (x : EReal)
    (h : FloatOps.cmpf (F := Ideal) (φ := .f32) .olt (FloatOps.hostAbsf (F := Ideal) (φ := .f32) x)
          (FloatOps.ofBits (F := Ideal) .f32 0x7F800000#32) = 1#1) : ∃ r : ℝ, x = (r : EReal) := by
  apply real_of_abs_lt_top
  have h' : Ideal.cmp .olt (max x (-x)) (Ideal.ofBits .f32 0x7F800000#32) = 1#1 := h
  rw [ofBits_inf] at h'
  unfold Ideal.cmp at h'
  by_contra hn
  simp [hn] at h'

/-- The printed predicate, all ones, makes every entry of both arrays a real number. -/
theorem fn_finite [Cert.Pre_finite_inputs.Facts]
    (a b : FVec Ideal Cert.Pre_finite_inputs.S4x8192x3 .f32)
    (h : Cert.Pre_finite_inputs.fn (F := Ideal) a b = fun _ => 1#1) :
    (∀ i, ∃ x : ℝ, a i = (x : EReal)) ∧ (∀ i, ∃ x : ℝ, b i = (x : EReal)) := by
  have h0 := congrFun h ix0
  dsimp only [Cert.Pre_finite_inputs.fn] at h0
  obtain ⟨h1, h2⟩ := IntOp.andi_eq_one.1 h0
  exact ⟨fun i => real_of_test (a i) (Host.reduce_andi_all _ _ _ _ _ h1 i),
         fun i => real_of_test (b i) (Host.reduce_andi_all _ _ _ _ _ h2 i)⟩

/-- Under the certificate's precondition both argument arrays hold real numbers only. -/
theorem finite_args [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ x : ℝ, m ((c.tc : Thread Cert.KernelIdeal.nD Cert.KernelIdeal.τ).loc Cert.KernelIdeal.main_arg0) i = (x : EReal))
    ∧ (∀ i, ∃ x : ℝ, m ((c.tc : Thread Cert.KernelIdeal.nD Cert.KernelIdeal.τ).loc Cert.KernelIdeal.main_arg1) i = (x : EReal)) :=
  fn_finite _ _ (hpre c)

end Cert.Finite

end
-- ==== Proof.Assemble.lean ====
/-
  The certificate's five conjuncts, assembled.

  The three frames are the frame runs of the three programs. The idealization rewrote no operation, so nothing is owed
  for it. For the value claim: the kernel ends at the shared tail of the two arrays of least squared distances in the
  arrangement that folds the factor −2 into the first cloud; the reference ends at the same tail of the two arrays in
  the subtracting arrangement, of arguments that are the kernel's. Under the precondition every coordinate is a real
  number, and over the reals the two arrangements are one number; so the two results are equal.
-/
import proofs.«145064_j82746839925382_2_alg».proof.Defs
import proofs.«145064_j82746839925382_2_alg».proof.Proof.Gen.Kernel
import proofs.«145064_j82746839925382_2_alg».proof.Proof.Gen.KernelIdeal
import proofs.«145064_j82746839925382_2_alg».proof.Proof.Gen.ReferenceIdeal
import proofs.«145064_j82746839925382_2_alg».proof.Proof.Gen.Pre_finite_inputs
import proofs.«145064_j82746839925382_2_alg».proof.Proof.KernelIdeal.Frame
import proofs.«145064_j82746839925382_2_alg».proof.Proof.Kernel.Frame
import proofs.«145064_j82746839925382_2_alg».proof.Proof.RefSide
import proofs.«145064_j82746839925382_2_alg».proof.Proof.Law
import proofs.«145064_j82746839925382_2_alg».proof.Proof.Finite
import proofs.«145064_j82746839925382_2_alg».proof.Proof.Spec

noncomputable section

namespace Cert.Assemble

open Idealize.ShloMosaic Idealize.SL.Sem

/-- The kernel, word for word, runs and leaves its arguments unchanged. -/
theorem frame_k : Cert.frame_Kernel (hKernel := Cert.Kernel.Gen.facts) (hPre_finite_inputs := Cert.Pre_finite_inputs.Gen.facts) :=
  fun m ρ _ => Cert.Kernel.Body.frame (F := Bits) m ρ

/-- The kernel over the extended reals runs and leaves its arguments unchanged. -/
theorem frame_ki : Cert.frame_KernelIdeal (hKernelIdeal := Cert.KernelIdeal.Gen.facts) (hPre_finite_inputs := Cert.Pre_finite_inputs.Gen.facts) :=
  fun m ρ _ => Cert.KernelIdeal.Body.frame (F := Ideal) m ρ

/-- The reference runs and leaves its arguments unchanged. -/
theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2) (Cert.RefSide.ref_run m ρ)

/-- No operation was rewritten on the way to the extended reals. -/
theorem preserves : Cert.preserves_Kernel_KernelIdeal := trivial

/-- The value claim, from the kernel's run to the shared tail of its two arrays of least squared distances. -/
theorem algebraic
    (hk : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD,
          r.2.mem ((c.tc : Thread Cert.KernelIdeal.nD Cert.KernelIdeal.τ).loc Cert.KernelIdeal.main_v10)
              = Cert.Spec.tail Cert.KernelIdeal.Gen.reducesTo_S4x8192_S_d0_1 Cert.KernelIdeal.Gen.h_S_
                  (Cert.Spec.nearB (m ((c.tc : Thread Cert.KernelIdeal.nD Cert.KernelIdeal.τ).loc Cert.KernelIdeal.main_arg0))
                    (m ((c.tc : Thread Cert.KernelIdeal.nD Cert.KernelIdeal.τ).loc Cert.KernelIdeal.main_arg1)))
                  (Cert.Spec.nearA (m ((c.tc : Thread Cert.KernelIdeal.nD Cert.KernelIdeal.τ).loc Cert.KernelIdeal.main_arg0))
                    (m ((c.tc : Thread Cert.KernelIdeal.nD Cert.KernelIdeal.τ).loc Cert.KernelIdeal.main_arg1)))
          ∧ r.2.mem ((c.tc : Thread Cert.KernelIdeal.nD Cert.KernelIdeal.τ).loc Cert.KernelIdeal.main_arg0)
              = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
              = m ((c.tc : Thread Cert.KernelIdeal.nD Cert.KernelIdeal.τ).loc Cert.KernelIdeal.main_arg1))) :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => Cert.Spec.tail Cert.KernelIdeal.Gen.reducesTo_S4x8192_S_d0_1 Cert.KernelIdeal.Gen.h_S_
      (Cert.Spec.nearB (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (Cert.Spec.nearA (m ((c.tc : Thread Cert.KernelIdeal.nD Cert.KernelIdeal.τ).loc Cert.KernelIdeal.main_arg0))
        (m ((c.tc : Thread Cert.KernelIdeal.nD Cert.KernelIdeal.τ).loc Cert.KernelIdeal.main_arg1))), hk m ρ, ?_⟩
  refine (θ_run (Cert.ReferenceIdeal.defs (F := Ideal)) _ _).mono (fun _ h c => ⟨(h c).1.trans ?_, (h c).2⟩)
    (Cert.RefSide.ref_run m' ρ')
  rw [(hagree c).1, (hagree c).2,
    Cert.Law.nearBR_eq _ _ (Cert.Finite.finite_args m hpre c).1 (Cert.Finite.finite_args m hpre c).2,
    Cert.Law.nearAR_eq _ _ (Cert.Finite.finite_args m hpre c).1 (Cert.Finite.finite_args m hpre c).2]

/-- Everything the certificate claims, from the kernel's run. -/
theorem claim_of
    (hk : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD,
          r.2.mem ((c.tc : Thread Cert.KernelIdeal.nD Cert.KernelIdeal.τ).loc Cert.KernelIdeal.main_v10)
              = Cert.Spec.tail Cert.KernelIdeal.Gen.reducesTo_S4x8192_S_d0_1 Cert.KernelIdeal.Gen.h_S_
                  (Cert.Spec.nearB (m ((c.tc : Thread Cert.KernelIdeal.nD Cert.KernelIdeal.τ).loc Cert.KernelIdeal.main_arg0))
                    (m ((c.tc : Thread Cert.KernelIdeal.nD Cert.KernelIdeal.τ).loc Cert.KernelIdeal.main_arg1)))
                  (Cert.Spec.nearA (m ((c.tc : Thread Cert.KernelIdeal.nD Cert.KernelIdeal.τ).loc Cert.KernelIdeal.main_arg0))
                    (m ((c.tc : Thread Cert.KernelIdeal.nD Cert.KernelIdeal.τ).loc Cert.KernelIdeal.main_arg1)))
          ∧ r.2.mem ((c.tc : Thread Cert.KernelIdeal.nD Cert.KernelIdeal.τ).loc Cert.KernelIdeal.main_arg0)
              = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
              = m ((c.tc : Thread Cert.KernelIdeal.nD Cert.KernelIdeal.τ).loc Cert.KernelIdeal.main_arg1))) :
    Cert.Claim :=
  ⟨Cert.Kernel.Gen.facts, Cert.KernelIdeal.Gen.facts, Cert.ReferenceIdeal.Gen.facts, Cert.Pre_finite_inputs.Gen.facts,
    frame_k, frame_ki, frame_ri, preserves, algebraic hk⟩

end Cert.Assemble

end
-- ==== Proof.Pieces.lean ====
/-
  What each case of the body leaves in the two output buffers, through the body's own arithmetic: the row minima's block
  is always the pointwise minimum of a previous block (all +inf where a sweep begins) with this tile's row minima; the
  column minima's block is a previous block (all +inf where a batch begins) with the slice of this tile lowered by the
  tile's column minima, the rest untouched.
-/
import proofs.«145064_j82746839925382_2_alg».proof.Proof.KernelIdeal.Frame
import Idealize.ShloMosaic.Lib.Pipeline.Value
import Idealize.ShloMosaic.Lib.ValueIdx
import Idealize.ShloMosaic.Lib.WritesUnit

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Body Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz3 : (![0, 0, 0] : Fin 3 → Nat) = fun _ => 0 := funext fun a => by fin_cases a <;> rfl

/-! ## The row minima's block -/

theorem out_B_2 (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x1x2048 .f32) (harg5 : arg5.IsWhole) (arg6 : Memref sig .tc .vmem S1x1x8192 .f32) (harg6 : arg6.IsWhole) (hc0 : ¬cond0_0 i) (hc1 : ¬cond0_1 i) (x0 : Vec F S1x2048x3 .f32) (x1 : Vec F S1x2048x3 .f32) (xo2 : Vec F S1x1x2048 .f32) (xo3 : Vec F S1x1x8192 .f32) :
    out0_B_2 c i arg3 harg3 arg4 harg4 arg5 harg5 arg6 harg6 hc0 hc1 x0 x1 xo2 xo3 = k0_pay5 x0 x1 xo2 := by
  unfold out0_B_2
  rw [View.read_writes_eq_canon _ _ _ (cover0_B_2 c i arg3 harg3 arg4 harg4 arg5 harg5 arg6 harg6 hc0 hc1 x0 x1 xo2 xo3)]
  unfold kernelRun0_B
  dsimp only
  rw [View.canon_unit_zero hz3]
  simp only [View.readAt_eq_ld, harg3.read_unread, harg4.read_unread, harg5.read_unread,
    View.ld_unit_zero (S := S1x2048x3) hz3, View.ld_unit_zero (S := S1x1x2048) hz3]

theorem out_A_2 (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x1x2048 .f32) (harg5 : arg5.IsWhole) (arg6 : Memref sig .tc .vmem S1x1x8192 .f32) (harg6 : arg6.IsWhole) (hc0 : cond0_0 i) (hc1 : cond0_1 i) (hl : k0_off1 i = ![0, 0, 0]) (x0 : Vec F S1x2048x3 .f32) (x1 : Vec F S1x2048x3 .f32) :
    out0_A_2 c i arg3 harg3 arg4 harg4 arg5 harg5 arg6 harg6 hc0 hc1 hl x0 x1 = k0_pay5 x0 x1 (k0_pay4 (F := F)) := by
  unfold out0_A_2
  rw [View.read_writes_eq_canon _ _ _ (cover0_A_2 c i arg3 harg3 arg4 harg4 arg5 harg5 arg6 harg6 hc0 hc1 hl x0 x1)]
  unfold kernelRun0_A
  dsimp only
  sl_unfold_words
  rw [View.canon_cons_unit_zero (S := S1x1x2048) hz3, View.readCov_unit_zero (S := S1x1x2048) _ hz3]
  simp only [View.readAt_eq_ld, harg3.read_unread, harg4.read_unread,
    View.ld_unit_zero (S := S1x2048x3) hz3]

theorem out_C_2 (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x1x2048 .f32) (harg5 : arg5.IsWhole) (arg6 : Memref sig .tc .vmem S1x1x8192 .f32) (harg6 : arg6.IsWhole) (hc0 : cond0_0 i) (hc1 : ¬cond0_1 i) (x0 : Vec F S1x2048x3 .f32) (x1 : Vec F S1x2048x3 .f32) (xo3 : Vec F S1x1x8192 .f32) :
    out0_C_2 c i arg3 harg3 arg4 harg4 arg5 harg5 arg6 harg6 hc0 hc1 x0 x1 xo3 = k0_pay5 x0 x1 (k0_pay4 (F := F)) := by
  unfold out0_C_2
  rw [View.read_writes_eq_canon _ _ _ (cover0_C_2 c i arg3 harg3 arg4 harg4 arg5 harg5 arg6 harg6 hc0 hc1 x0 x1 xo3)]
  unfold kernelRun0_C
  dsimp only
  sl_unfold_words
  rw [View.canon_cons_unit_zero (S := S1x1x2048) hz3, View.readCov_unit_zero (S := S1x1x2048) _ hz3]
  simp only [View.readAt_eq_ld, harg3.read_unread, harg4.read_unread,
    View.ld_unit_zero (S := S1x2048x3) hz3]

/-! ## The column minima's block -/

/-- The slice of 2048 of a block of 8192 that the body reads and rewrites at the point's offset. -/
abbrev sliceOf (i : grid0.Coords) (X : Vec F S1x1x8192 .f32) : Vec F S1x1x2048 .f32 :=
  View.ld X (Rect.unit (s := S1x1x8192) (k0_off1 i) S1x1x2048.size (Facts₀.k0_off1_inb i))

/-- In the middle of a sweep, under the rewritten slice: the slice's previous value lowered by the tile's column minimum. -/
theorem out_B_3_in (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x1x2048 .f32) (harg5 : arg5.IsWhole) (arg6 : Memref sig .tc .vmem S1x1x8192 .f32) (harg6 : arg6.IsWhole) (hc0 : ¬cond0_0 i) (hc1 : ¬cond0_1 i) (x0 : Vec F S1x2048x3 .f32) (x1 : Vec F S1x2048x3 .f32) (xo2 : Vec F S1x1x2048 .f32) (xo3 : Vec F S1x1x8192 .f32) (o : ℕ) (ho : k0_off1 i = ![0, 0, o])
    (y : S1x1x8192.Idx) (s : Fin 2048) (hy : (y 2).val = o + s.val) :
    out0_B_3 c i arg3 harg3 arg4 harg4 arg5 harg5 arg6 harg6 hc0 hc1 x0 x1 xo2 xo3 y = k0_pay2 (k0_pay3 x0 x1) (sliceOf i xo3) (ix3 0 0 s) := by
  have h0 : (y 0).val < 1 := (y 0).isLt
  have h1 : (y 1).val < 1 := (y 1).isLt
  unfold out0_B_3 kernelRun0_B
  dsimp only
  refine (View.read_writes_cons_unit_of_mem (size := ![1, 1, 2048]) arg6.view (harg6.unread xo3) (Facts₀.k0_off1_inb i) _ [] y (ix3 0 0 s) ho (fun a => by
    fin_cases a
    · show (y 0).val = 0 + 0; omega
    · show (y 1).val = 0 + 0; omega
    · show (y 2).val = o + s.val; exact hy)).trans ?_
  sl_unfold_words
  simp only [View.readAt_eq_ld, harg3.read_unread, harg4.read_unread, harg6.read_unread,
    View.ld_unit_zero (S := S1x2048x3) hz3]
  rfl

/-- In the middle of a sweep, outside the rewritten slice: what the block held. -/
theorem out_B_3_out (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x1x2048 .f32) (harg5 : arg5.IsWhole) (arg6 : Memref sig .tc .vmem S1x1x8192 .f32) (harg6 : arg6.IsWhole) (hc0 : ¬cond0_0 i) (hc1 : ¬cond0_1 i) (x0 : Vec F S1x2048x3 .f32) (x1 : Vec F S1x2048x3 .f32) (xo2 : Vec F S1x1x2048 .f32) (xo3 : Vec F S1x1x8192 .f32) (o : ℕ) (ho : k0_off1 i = ![0, 0, o])
    (y : S1x1x8192.Idx) (hy : (y 2).val < o ∨ o + 2048 ≤ (y 2).val) :
    out0_B_3 c i arg3 harg3 arg4 harg4 arg5 harg5 arg6 harg6 hc0 hc1 x0 x1 xo2 xo3 y = xo3 y := by
  have hy' : (y 2).val < (![0, 0, o] : Fin 3 → ℕ) 2 ∨ (![0, 0, o] : Fin 3 → ℕ) 2 + (![1, 1, 2048] : Fin 3 → ℕ) 2 ≤ (y 2).val := hy
  unfold out0_B_3 kernelRun0_B
  dsimp only
  rw [View.read_writes_cons_unit_of_not_mem (size := ![1, 1, 2048]) _ _ _ _ _ y ho 2 hy']
  show arg6.view.read (Elt F) (harg6.unread xo3) y = xo3 y
  rw [harg6.read_unread]

/-- Where a sweep begins inside a batch, under the first slice: its previous value lowered by the tile's column minimum. -/
theorem out_C_3_in (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x1x2048 .f32) (harg5 : arg5.IsWhole) (arg6 : Memref sig .tc .vmem S1x1x8192 .f32) (harg6 : arg6.IsWhole) (hc0 : cond0_0 i) (hc1 : ¬cond0_1 i) (x0 : Vec F S1x2048x3 .f32) (x1 : Vec F S1x2048x3 .f32) (xo3 : Vec F S1x1x8192 .f32) (o : ℕ) (ho : k0_off1 i = ![0, 0, o])
    (y : S1x1x8192.Idx) (s : Fin 2048) (hy : (y 2).val = o + s.val) :
    out0_C_3 c i arg3 harg3 arg4 harg4 arg5 harg5 arg6 harg6 hc0 hc1 x0 x1 xo3 y = k0_pay2 (k0_pay3 x0 x1) (sliceOf i xo3) (ix3 0 0 s) := by
  have h0 : (y 0).val < 1 := (y 0).isLt
  have h1 : (y 1).val < 1 := (y 1).isLt
  unfold out0_C_3 kernelRun0_C
  dsimp only
  refine (View.read_writes_cons_unit_of_mem (size := ![1, 1, 2048]) arg6.view (harg6.unread xo3) (Facts₀.k0_off1_inb i) _ [] y (ix3 0 0 s) ho (fun a => by
    fin_cases a
    · show (y 0).val = 0 + 0; omega
    · show (y 1).val = 0 + 0; omega
    · show (y 2).val = o + s.val; exact hy)).trans ?_
  sl_unfold_words
  simp only [View.readAt_eq_ld, harg3.read_unread, harg4.read_unread, harg6.read_unread,
    View.ld_unit_zero (S := S1x2048x3) hz3]
  rfl

/-- Where a sweep begins inside a batch, outside the first slice: what the block held. -/
theorem out_C_3_out (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x1x2048 .f32) (harg5 : arg5.IsWhole) (arg6 : Memref sig .tc .vmem S1x1x8192 .f32) (harg6 : arg6.IsWhole) (hc0 : cond0_0 i) (hc1 : ¬cond0_1 i) (x0 : Vec F S1x2048x3 .f32) (x1 : Vec F S1x2048x3 .f32) (xo3 : Vec F S1x1x8192 .f32) (o : ℕ) (ho : k0_off1 i = ![0, 0, o])
    (y : S1x1x8192.Idx) (hy : (y 2).val < o ∨ o + 2048 ≤ (y 2).val) :
    out0_C_3 c i arg3 harg3 arg4 harg4 arg5 harg5 arg6 harg6 hc0 hc1 x0 x1 xo3 y = xo3 y := by
  have hy' : (y 2).val < (![0, 0, o] : Fin 3 → ℕ) 2 ∨ (![0, 0, o] : Fin 3 → ℕ) 2 + (![1, 1, 2048] : Fin 3 → ℕ) 2 ≤ (y 2).val := hy
  unfold out0_C_3 kernelRun0_C
  dsimp only
  rw [View.read_writes_cons_unit_of_not_mem (size := ![1, 1, 2048]) _ _ _ _ _ y ho 2 hy']
  show arg6.view.read (Elt F) (harg6.unread xo3) y = xo3 y
  rw [harg6.read_unread]

/-- A slice read at an index: the block at the offset plus the index. -/
theorem sliceOf_apply (i : grid0.Coords) (X : Vec F S1x1x8192 .f32) (o : ℕ) (ho : k0_off1 i = ![0, 0, o])
    (y : S1x1x8192.Idx) (s : Fin 2048) (hy : (y 2).val = o + s.val) : sliceOf i X (ix3 0 0 s) = X y := by
  have h0 : (y 0).val < 1 := (y 0).isLt
  have h1 : (y 1).val < 1 := (y 1).isLt
  show X _ = X y
  refine congrArg X (funext fun a => Fin.ext ?_)
  show (k0_off1 i) a + 1 * ((ix3 (0 : Fin 1) (0 : Fin 1) s) a).val = (y a).val
  rw [ho]
  fin_cases a
  · show 0 + 1 * 0 = (y 0).val; omega
  · show 0 + 1 * 0 = (y 1).val; omega
  · show o + 1 * s.val = (y 2).val; omega

/-- Every index lies under a store of the whole block. -/
theorem whole_cover (y : S1x1x8192.Idx) :
    ∃ p ∈ [(⟨Rect.unit (s := S1x1x8192) ![0, 0, 0] S1x1x8192.size Facts₀.inb_S1x1x8192_S1x1x8192_0_0_0, k0_pay1 (F := F)⟩ : View.Piece (Elt F) S1x1x8192 .f32)], y ∈ p.1.set :=
  ⟨_, List.mem_singleton_self _, View.mem_set_unit_zero (S := S1x1x8192) (off := ![0, 0, 0]) hz3 Facts₀.inb_S1x1x8192_S1x1x8192_0_0_0 y⟩

/-- After the one store of +inf over the whole block, the block reads +inf everywhere, whatever it held. -/
theorem whole_inf (v : View sig .tc .vmem S1x1x8192 .f32) (f : v.ty.Contents (Elt F)) :
    v.read (Elt F) (v.writes (Elt F) f [(⟨Rect.unit (s := S1x1x8192) ![0, 0, 0] S1x1x8192.size Facts₀.inb_S1x1x8192_S1x1x8192_0_0_0, k0_pay1 (F := F)⟩ : View.Piece (Elt F) S1x1x8192 .f32)]) = k0_pay1 (F := F) := by
  rw [View.read_writes_eq_canon _ _ _ (whole_cover (F := F))]
  exact View.canon_unit_zero (S := S1x1x8192) hz3 _ _

/-- Where a batch begins, the slice the body reads back after the +inf store is the slice of the +inf block. -/
theorem slice_after_inf (c : Dev nD) (i : grid0.Coords) (arg6 : Memref sig .tc .vmem S1x1x8192 .f32) :
    kernelRun0_A.sl.v37 (F := F) c i arg6 = sliceOf i (k0_pay1 (F := F)) := by
  unfold kernelRun0_A.sl.v37
  unfold View.readCov
  rw [View.readAt_eq_ld]
  unfold kernelRun0_A.sl.H3_1
  rw [whole_inf]

/-- Where a batch begins, the tile of squared distances the body computes is the arithmetic of the two input blocks. -/
theorem tile_A (c : Dev nD) (arg3 : Memref sig .tc .vmem S1x2048x3 .f32) (harg3 : arg3.IsWhole) (arg4 : Memref sig .tc .vmem S1x2048x3 .f32) (harg4 : arg4.IsWhole) (x0 : Vec F S1x2048x3 .f32) (x1 : Vec F S1x2048x3 .f32) :
    kernelRun0_A.sl.r (F := F) c arg3 harg3 arg4 harg4 x0 x1 = k0_pay3 x0 x1 := by
  unfold kernelRun0_A.sl.r
  simp only [View.readAt_eq_ld, harg3.read_unread, harg4.read_unread, View.ld_unit_zero (S := S1x2048x3) hz3]

/-- Where a batch begins, under the first slice: +inf lowered by the tile's column minimum. -/
theorem out_A_3_in (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x1x2048 .f32) (harg5 : arg5.IsWhole) (arg6 : Memref sig .tc .vmem S1x1x8192 .f32) (harg6 : arg6.IsWhole) (hc0 : cond0_0 i) (hc1 : cond0_1 i) (hl : k0_off1 i = ![0, 0, 0]) (x0 : Vec F S1x2048x3 .f32) (x1 : Vec F S1x2048x3 .f32)
    (y : S1x1x8192.Idx) (s : Fin 2048) (hy : (y 2).val = s.val) :
    out0_A_3 c i arg3 harg3 arg4 harg4 arg5 harg5 arg6 harg6 hc0 hc1 hl x0 x1 y = k0_pay2 (k0_pay3 x0 x1) (sliceOf i (k0_pay1 (F := F))) (ix3 0 0 s) := by
  have h0 : (y 0).val < 1 := (y 0).isLt
  have h1 : (y 1).val < 1 := (y 1).isLt
  unfold out0_A_3 kernelRun0_A
  dsimp only
  refine (View.read_writes_cons_unit_of_mem (size := ![1, 1, 2048]) VO0_3 VO0_3.junk (Facts₀.k0_off1_inb i) _ _ y (ix3 0 0 s) hl (fun a => by
    fin_cases a
    · show (y 0).val = 0 + 0; omega
    · show (y 1).val = 0 + 0; omega
    · show (y 2).val = 0 + s.val; omega)).trans ?_
  rw [tile_A, slice_after_inf]

/-- Where a batch begins, outside the first slice: +inf. -/
theorem out_A_3_out (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x1x2048 .f32) (harg5 : arg5.IsWhole) (arg6 : Memref sig .tc .vmem S1x1x8192 .f32) (harg6 : arg6.IsWhole) (hc0 : cond0_0 i) (hc1 : cond0_1 i) (hl : k0_off1 i = ![0, 0, 0]) (x0 : Vec F S1x2048x3 .f32) (x1 : Vec F S1x2048x3 .f32)
    (y : S1x1x8192.Idx) (hy : 2048 ≤ (y 2).val) :
    out0_A_3 c i arg3 harg3 arg4 harg4 arg5 harg5 arg6 harg6 hc0 hc1 hl x0 x1 y = k0_pay1 (F := F) y := by
  have hy' : (y 2).val < (![0, 0, 0] : Fin 3 → ℕ) 2 ∨ (![0, 0, 0] : Fin 3 → ℕ) 2 + (![1, 1, 2048] : Fin 3 → ℕ) 2 ≤ (y 2).val :=
    Or.inr (by show 0 + 2048 ≤ (y 2).val; omega)
  unfold out0_A_3 kernelRun0_A
  dsimp only
  rw [View.read_writes_cons_unit_of_not_mem (size := ![1, 1, 2048]) _ _ _ _ _ y hl 2 hy']
  unfold kernelRun0_A.sl.H3_1
  rw [whole_inf]

end Cert.KernelIdeal.Val

end
-- ==== Proof.Payload.lean ====
/-
  The arithmetic of one tile of the kernel, read at an index.

  A tile takes 2048 points of the first cloud (rows) and 2048 points of the second (columns). Its matrix of clamped
  squared distances has, at row r and column s, the squared length of row point r plus the squared length of column
  point s plus the inner product of (−2)·(row point r) with column point s, clamped below at zero. The running minimum
  kept per row point is the least of what was kept before and of every entry of its row; the running minimum kept per
  column point is the same over its column. Both start from +∞. A lower bound of such a minimum is a lower bound of
  every term, which is how the minima are carried: by their universal property.
-/
import proofs.«145064_j82746839925382_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal

/-! ## Casts between a vector and its copy under two leading unit axes -/

section Casts
variable {α : Type}

/-- An `[a]` array cast to `[1, 1, a]` reads, at `(u, v, i)`, the operand at `i`. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; simp)

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

end Casts

/-! ## The starting value of a running minimum -/

/-- The word `0x7F800000` is +∞. -/
theorem ofBits_inf : Ideal.ofBits .f32 0x7F800000#32 = (⊤ : EReal) := by simp [Ideal.ofBits, Ideal.ieee]

/-- The first store of a column minimum's whole row: +∞ everywhere. -/
theorem pay1_apply (i : S1x1x8192.Idx) : Gen.k0_pay1 (F := Ideal) i = (⊤ : EReal) := by
  unfold Gen.k0_pay1
  exact ofBits_inf

/-- The first store of a row minimum's block: +∞ everywhere. -/
theorem pay4_apply (i : S1x1x2048.Idx) : Gen.k0_pay4 (F := Ideal) i = (⊤ : EReal) := by
  unfold Gen.k0_pay4
  exact ofBits_inf

/-! ## A minimum over one axis, by its lower bounds -/

/-- A minimum reduction over one axis is the fold of `min` from the starting value over that axis's coordinates. -/
theorem multiReduction_minimumf_single {s t : Shape} {a : Fin s.rank} {φ : FTy} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- So a number is below it exactly when it is below the starting value and below every term. -/
theorem le_multiReduction_minimumf {s t : Shape} {a : Fin s.rank} {φ : FTy} (src : FVec Ideal s φ)
    (acc : BitVec φ.bits) (h : s.Reduces [a] t) (hφ : FKind.Formats φ) (hacc : acc = FKind.minimumf.neutral φ hφ)
    (j : t.Idx) (c : EReal) :
    c ≤ multiReduction .minimumf [a] t src acc h hφ hacc j
      ↔ c ≤ Ideal.ofBits φ acc ∧ ∀ k : Fin (s.size a), c ≤ src (h.lift j k) := by
  rw [multiReduction_minimumf_single, Finset.le_fold_min]
  exact ⟨fun ⟨h0, hk⟩ => ⟨h0, fun k => hk k (Finset.mem_univ k)⟩, fun ⟨h0, hk⟩ => ⟨h0, fun k _ => hk k⟩⟩

/-- The least entry of row `r` of a square tile, started from +∞: below it is below every entry of the row. -/
theorem le_rowMin (src : FVec Ideal S2048x2048 .f32) (h : S2048x2048.Reduces [1] S2048) (hφ : FKind.Formats .f32)
    (hacc : (0x7F800000#32 : BitVec 32) = FKind.minimumf.neutral .f32 hφ) (r : Fin 2048) (c : EReal) :
    c ≤ multiReduction .minimumf [1] S2048 src 0x7F800000#32 h hφ hacc (ix1 r) ↔ ∀ s : Fin 2048, c ≤ src (ix2 r s) := by
  rw [le_multiReduction_minimumf]
  have hl : ∀ k : Fin 2048, h.lift (ix1 r) k = ix2 r k := fun k =>
    funext fun d => Fin.ext (by match d with | ⟨0, _⟩ => rfl | ⟨1, _⟩ => rfl)
  constructor
  · rintro ⟨_, hk⟩ s
    have := hk s
    rwa [hl] at this
  · intro hs
    exact ⟨by rw [ofBits_inf]; exact le_top, fun k => by rw [show h.lift (ix1 r) k = ix2 r k from hl k]; exact hs k⟩

/-- The least entry of column `s`: below it is below every entry of the column. -/
theorem le_colMin (src : FVec Ideal S2048x2048 .f32) (h : S2048x2048.Reduces [0] S2048) (hφ : FKind.Formats .f32)
    (hacc : (0x7F800000#32 : BitVec 32) = FKind.minimumf.neutral .f32 hφ) (s : Fin 2048) (c : EReal) :
    c ≤ multiReduction .minimumf [0] S2048 src 0x7F800000#32 h hφ hacc (ix1 s) ↔ ∀ r : Fin 2048, c ≤ src (ix2 r s) := by
  rw [le_multiReduction_minimumf]
  have hl : ∀ k : Fin 2048, h.lift (ix1 s) k = ix2 k s := fun k =>
    funext fun d => Fin.ext (by match d with | ⟨0, _⟩ => rfl | ⟨1, _⟩ => rfl)
  constructor
  · rintro ⟨_, hk⟩ r
    have := hk r
    rwa [hl] at this
  · intro hr
    exact ⟨by rw [ofBits_inf]; exact le_top, fun k => by rw [show h.lift (ix1 s) k = ix2 k s from hl k]; exact hr k⟩

/-! ## The two running minima of a tile -/

/-- What a tile leaves as the running minimum of row point `r`: the least of what was kept before and of every entry
    of row `r` of the tile's matrix of clamped squared distances. -/
theorem pay5_le (x0 x1 : Vec Ideal S1x2048x3 .f32) (o : Vec Ideal S1x1x2048 .f32) (r : Fin 2048) (c : EReal) :
    c ≤ Gen.k0_pay5 (F := Ideal) x0 x1 o (ix3 0 0 r)
      ↔ c ≤ o (ix3 0 0 r) ∧ ∀ s : Fin 2048, c ≤ Gen.k0_pay3 (F := Ideal) x0 x1 (ix2 r s) := by
  have e : Gen.k0_pay5 (F := Ideal) x0 x1 o (ix3 0 0 r)
      = min (o (ix3 0 0 r)) (multiReduction .minimumf [1] S2048 (Gen.k0_pay3 (F := Ideal) x0 x1) 0x7F800000#32
          Gen.reduces_S2048x2048_S2048 (.inl rfl) rfl (ix1 r)) := by
    unfold Gen.k0_pay5
    refine (shapeCast_a_11a_apply _ _ 0 0 r).trans ?_
    exact congrArg (min · _) (shapeCast_11a_a_apply o _ r)
  rw [e, le_min_iff]
  exact and_congr_right fun _ => le_rowMin _ _ _ _ r c

/-- What a tile leaves as the running minimum of column point `s`: the least of what was kept before and of every
    entry of column `s` of the tile's matrix. -/
theorem pay2_le (v18 : FVec Ideal S2048x2048 .f32) (o : Vec Ideal S1x1x2048 .f32) (s : Fin 2048) (c : EReal) :
    c ≤ Gen.k0_pay2 (F := Ideal) v18 o (ix3 0 0 s) ↔ c ≤ o (ix3 0 0 s) ∧ ∀ r : Fin 2048, c ≤ v18 (ix2 r s) := by
  have e : Gen.k0_pay2 (F := Ideal) v18 o (ix3 0 0 s)
      = min (o (ix3 0 0 s)) (multiReduction .minimumf [0] S2048 v18 0x7F800000#32
          Gen.reduces_S2048x2048_S2048_2 (.inl rfl) rfl (ix1 s)) := by
    unfold Gen.k0_pay2
    refine (shapeCast_a_11a_apply _ _ 0 0 s).trans ?_
    exact congrArg (min · _) (shapeCast_11a_a_apply o _ s)
  rw [e, le_min_iff]
  exact and_congr_right fun _ => le_colMin _ _ _ _ s c

end Cert.KernelIdeal.Pay

end
-- ==== Proof.PayloadSq.lean ====
/-
  One entry of a tile's matrix of clamped squared distances.

  The tile holds 2048 points of the first cloud (its rows) and 2048 points of the second (its columns), three
  coordinates each. The entry at row r and column s is

      max ( |row point r|² + |column point s|² + Σ_k ((row point r)_k · (−2)) · (column point s)_k , 0 ).

  The two squared lengths are sums over the three coordinates of a point; the first is laid out as a column and
  repeated along every row, the second as a row and repeated along every column. The third term is a matrix product
  over the coordinate axis of the first cloud's points scaled by −2 with the second cloud's points, accumulated from
  zero. Every step below reads one operation at one index; nothing is evaluated and no law of arithmetic is used.
-/
import proofs.«145064_j82746839925382_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal

/-! ## A vector laid out as a column, and a column repeated along rows -/

section Column
variable {α : Type}

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; simp)

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The squared length of a point of a block -/

/-- Row `r` of a `[1, 2048, 3]` block, squared coordinate by coordinate and summed over the coordinate axis. -/
theorem rowSq (x : Vec Ideal S1x2048x3 .f32) (hc : S1x2048x3.ShapeCasts S2048x3) (hr : S2048x3.Reduces [1] S2048)
    (hφ : FKind.Formats .f32) (hacc : (0x00000000#32 : BitVec 32) = FKind.add.neutral .f32 hφ) (r : Fin 2048) :
    multiReduction (F := Ideal) .add [1] S2048
        (mulf (shapeCast S2048x3 x hc : FVec Ideal S2048x3 .f32) (shapeCast S2048x3 x hc)) 0x00000000#32 hr hφ hacc (ix1 r)
      = ∑ k : Fin 3, x (ix3 0 r k) * x (ix3 0 r k) := by
  refine (Ideal.multiReduction_add_single _ _ hr hφ hacc (ix1 r)).trans ?_
  refine Finset.sum_congr rfl fun k _ => ?_
  have hl : hr.lift (ix1 r) k = ix2 r k :=
    funext fun d => Fin.ext (by match d with | ⟨0, _⟩ => rfl | ⟨1, _⟩ => rfl)
  rw [hl]
  exact congrArg₂ (· * ·) (shapeCast_1ab_ab_apply x hc r k) (shapeCast_1ab_ab_apply x hc r k)

/-! ## The matrix product over the coordinate axis -/

theorem lhs_row (i : S2048x2048.Idx) (q : dot_S2048x3_S2048x3_S2048x2048_1_1_0_0_n_n.contr.Idx) :
    (dot_S2048x3_S2048x3_S2048x2048_1_1_0_0_n_n.lhsIdx i q 0).val = (i 0).val := by
  unfold DotDims.lhsIdx
  rw [dif_neg (show ¬(0 : Fin S2048x3.rank) ∈ dot_S2048x3_S2048x3_S2048x2048_1_1_0_0_n_n.lhsBatch by decide),
    dif_pos (show (0 : Fin S2048x3.rank) ∈ dot_S2048x3_S2048x3_S2048x2048_1_1_0_0_n_n.lhsNonContracting by decide)]
  rfl
theorem lhs_coord (i : S2048x2048.Idx) (q : dot_S2048x3_S2048x3_S2048x2048_1_1_0_0_n_n.contr.Idx) :
    (dot_S2048x3_S2048x3_S2048x2048_1_1_0_0_n_n.lhsIdx i q 1).val = (q ⟨0, by decide⟩).val :=
  dot_S2048x3_S2048x3_S2048x2048_1_1_0_0_n_n.lhsIdx_val_of_single rfl i q
theorem rhs_row (i : S2048x2048.Idx) (q : dot_S2048x3_S2048x3_S2048x2048_1_1_0_0_n_n.contr.Idx) :
    (dot_S2048x3_S2048x3_S2048x2048_1_1_0_0_n_n.rhsIdx i q 0).val = (i 1).val := by
  unfold DotDims.rhsIdx
  rw [dif_neg (show ¬(0 : Fin S2048x3.rank) ∈ dot_S2048x3_S2048x3_S2048x2048_1_1_0_0_n_n.rhsBatch by decide),
    dif_pos (show (0 : Fin S2048x3.rank) ∈ dot_S2048x3_S2048x3_S2048x2048_1_1_0_0_n_n.rhsNonContracting by decide)]
  rfl
theorem rhs_coord (i : S2048x2048.Idx) (q : dot_S2048x3_S2048x3_S2048x2048_1_1_0_0_n_n.contr.Idx) :
    (dot_S2048x3_S2048x3_S2048x2048_1_1_0_0_n_n.rhsIdx i q 1).val = (q ⟨0, by decide⟩).val :=
  dot_S2048x3_S2048x3_S2048x2048_1_1_0_0_n_n.rhsIdx_val_of_single rfl i q

/-- The product of two `[2048, 3]` matrices over their coordinate axis, accumulated from zero: at `(p, q)` the sum over
    the three coordinates of row `p` of the left times row `q` of the right. -/
theorem matmul_at (l r : FVec Ideal S2048x3 .f32) (p q : Fin 2048) :
    matmul dot_S2048x3_S2048x3_S2048x2048_1_1_0_0_n_n (some .fp32) l r
        (constant (F := Ideal) S2048x2048 .f32 0x00000000#32) (ix2 p q)
      = ∑ k : Fin 3, l (ix2 p k) * r (ix2 q k) := by
  simp only [matmul]
  rw [Ideal.matmul_constant_zero_apply,
    ← Equiv.sum_comp (ValueIdx.contrEquiv1 dot_S2048x3_S2048x3_S2048x2048_1_1_0_0_n_n 3 rfl rfl).symm]
  refine Finset.sum_congr rfl fun k _ => ?_
  have hk := ValueIdx.contrEquiv1_symm_val dot_S2048x3_S2048x3_S2048x2048_1_1_0_0_n_n 3 rfl rfl k
  have el : dot_S2048x3_S2048x3_S2048x2048_1_1_0_0_n_n.lhsIdx (ix2 p q)
      ((ValueIdx.contrEquiv1 dot_S2048x3_S2048x3_S2048x2048_1_1_0_0_n_n 3 rfl rfl).symm k) = ix2 p k :=
    funext fun a => Fin.ext (by
      match a with
      | ⟨0, _⟩ => exact lhs_row _ _
      | ⟨1, _⟩ => exact (lhs_coord _ _).trans hk)
  have er : dot_S2048x3_S2048x3_S2048x2048_1_1_0_0_n_n.rhsIdx (ix2 p q)
      ((ValueIdx.contrEquiv1 dot_S2048x3_S2048x3_S2048x2048_1_1_0_0_n_n 3 rfl rfl).symm k) = ix2 q k :=
    funext fun a => Fin.ext (by
      match a with
      | ⟨0, _⟩ => exact rhs_row _ _
      | ⟨1, _⟩ => exact (rhs_coord _ _).trans hk)
  rw [el, er]

/-! ## The entry -/

/-- The tile's matrix at row `r` and column `s`. -/
theorem pay3_apply (x0 x1 : Vec Ideal S1x2048x3 .f32) (r s : Fin 2048) :
    Gen.k0_pay3 (F := Ideal) x0 x1 (ix2 r s)
      = max ((∑ k : Fin 3, x0 (ix3 0 r k) * x0 (ix3 0 r k)) + (∑ k : Fin 3, x1 (ix3 0 s k) * x1 (ix3 0 s k))
              + ∑ k : Fin 3, (x0 (ix3 0 r k) * Ideal.ofBits .f32 0xC0000000#32) * x1 (ix3 0 s k))
          (Ideal.ofBits .f32 0x00000000#32) := by
  unfold Gen.k0_pay3
  simp only [maximumf_apply, addf_apply, broadcast_apply]
  refine congrArg₂ max (congrArg₂ (· + ·) (congrArg₂ (· + ·) ?_ ?_) ?_) rfl
  · exact (broadcastTo_a1_ab_apply _ _ r s).trans ((shapeCast_a_a1_apply _ _ r 0).trans (rowSq x0 _ _ _ _ r))
  · exact (broadcastTo_1b_ab_apply _ _ r s).trans ((shapeCast_a_1a_apply _ _ 0 s).trans (rowSq x1 _ _ _ _ s))
  · refine (matmul_at _ _ r s).trans (Finset.sum_congr rfl fun k _ => ?_)
    show (shapeCast S2048x3 x0 _ (ix2 r k) * Ideal.ofBits .f32 0xC0000000#32) * shapeCast S2048x3 x1 _ (ix2 s k) = _
    rw [shapeCast_1ab_ab_apply, shapeCast_1ab_ab_apply]

end Cert.KernelIdeal.Pay

end
-- ==== Proof.Tile.lean ====
/-
  A tile's two input blocks, and one entry of its matrix, read off the argument arrays.

  The 64 grid points run over batch p, row tile n and column tile m' with the last fastest: point t has
  p = t / 16, n = (t / 4) mod 4, m' = t mod 4. The first cloud's block at point t is rows 2048·n … 2048·n + 2047 of
  batch p; the second cloud's block is rows 2048·m' … 2048·m' + 2047 of batch p. An index (0, r, k) inside a block sits
  at block index × block size + its own coordinate on every axis. Hence entry (r, s) of the tile's matrix is the clamped
  squared distance between point 2048·n + r of the first cloud and point 2048·m' + s of the second, both of batch p.
-/
import proofs.«145064_j82746839925382_2_alg».proof.Proof.Gen.KernelIdeal.Frame
import proofs.«145064_j82746839925382_2_alg».proof.Proof.PayloadSq
import proofs.«145064_j82746839925382_2_alg».proof.Proof.Spec
import Idealize.ShloMosaic.Lib.ValueIdx
import Idealize.ShloMosaic.Lib.Pipeline.Value

noncomputable section

namespace Cert.KernelIdeal.Tile

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The coordinates of a grid point, within their ranges -/

/-- There are 64 grid points. -/
theorem tLt (t : Fin cfg0.N) : t.val < 64 := by
  have h := t.isLt
  have hN : cfg0.N = 64 := Gen.N_0
  omega

/-- The batch of point `t`. -/
theorem pLt (t : Fin cfg0.N) : t.val / 16 < 4 := by have := tLt t; omega

/-- Row `r` of the first cloud's block at point `t`, as a row of the array. -/
theorem rowLt (t : Fin cfg0.N) (r : Fin 2048) : 2048 * ((t.val / 4) % 4) + r.val < 8192 := by
  have := r.isLt; omega

/-- Row `s` of the second cloud's block at point `t`, as a row of the array. -/
theorem colLt (t : Fin cfg0.N) (s : Fin 2048) : 2048 * (t.val % 4) + s.val < 8192 := by
  have := s.isLt; omega

/-! ## The block indices, decided once over the grid -/

theorem idx0 : ∀ t : Fin cfg0.N, win0_0.index t (0 : Fin 3) = t.val / 16
    ∧ win0_0.index t (1 : Fin 3) = (t.val / 4) % 4 ∧ win0_0.index t (2 : Fin 3) = 0 :=
  (by decide +kernel : ∀ t : Fin grid0.N, _)

theorem idx1 : ∀ t : Fin cfg0.N, win0_1.index t (0 : Fin 3) = t.val / 16
    ∧ win0_1.index t (1 : Fin 3) = t.val % 4 ∧ win0_1.index t (2 : Fin 3) = 0 :=
  (by decide +kernel : ∀ t : Fin grid0.N, _)

/-! ## The blocks read at an index -/

/-- The first cloud's block at point `t`: coordinate `k` of its row `r`. -/
theorem iblk0_apply (c : Dev nD) (t : Fin cfg0.N) (r : Fin 2048) (k : Fin 3) :
    Gen.iblk m c 0 t (ix3 0 r k)
      = m ((c.tc : Thread nD τ).loc main_arg0)
          (ix3 ⟨t.val / 16, pLt t⟩ ⟨2048 * ((t.val / 4) % 4) + r.val, rowLt t r⟩ k) := by
  obtain ⟨e0, e1, e2⟩ := idx0 t
  unfold Gen.iblk
  show V m c main_arg0 (((cfg0.win 0).blk t).view.emb (ix3 0 r k)) = _
  rw [V_main_arg0]
  refine congrArg (m ((c.tc : Thread nD τ).loc main_arg0)) (funext fun a => Fin.ext ?_)
  match a with
  | ⟨0, _⟩ => show win0_0.index t (0 : Fin 3) * 1 + 1 * 0 = t.val / 16; omega
  | ⟨1, _⟩ => show win0_0.index t (1 : Fin 3) * 2048 + 1 * r.val = 2048 * ((t.val / 4) % 4) + r.val; omega
  | ⟨2, _⟩ => show win0_0.index t (2 : Fin 3) * 3 + 1 * k.val = k.val; omega

/-- The second cloud's block at point `t`: coordinate `k` of its row `s`. -/
theorem iblk1_apply (c : Dev nD) (t : Fin cfg0.N) (s : Fin 2048) (k : Fin 3) :
    Gen.iblk m c 1 t (ix3 0 s k)
      = m ((c.tc : Thread nD τ).loc main_arg1)
          (ix3 ⟨t.val / 16, pLt t⟩ ⟨2048 * (t.val % 4) + s.val, colLt t s⟩ k) := by
  obtain ⟨e0, e1, e2⟩ := idx1 t
  unfold Gen.iblk
  show V m c main_arg1 (((cfg0.win 1).blk t).view.emb (ix3 0 s k)) = _
  rw [V_main_arg1]
  refine congrArg (m ((c.tc : Thread nD τ).loc main_arg1)) (funext fun a => Fin.ext ?_)
  match a with
  | ⟨0, _⟩ => show win0_1.index t (0 : Fin 3) * 1 + 1 * 0 = t.val / 16; omega
  | ⟨1, _⟩ => show win0_1.index t (1 : Fin 3) * 2048 + 1 * s.val = 2048 * (t.val % 4) + s.val; omega
  | ⟨2, _⟩ => show win0_1.index t (2 : Fin 3) * 3 + 1 * k.val = k.val; omega

/-! ## One entry of the tile's matrix -/

/-- Entry `(r, s)` of the matrix of point `t`: the clamped squared distance, in the arrangement with −2 folded into
    the first point, between row `2048·n + r` of the first cloud and row `2048·m' + s` of the second, in batch `p`. -/
theorem tile_sq (c : Dev nD) (t : Fin cfg0.N) (r s : Fin 2048) :
    Gen.k0_pay3 (F := Ideal) (Gen.iblk m c 0 t) (Gen.iblk m c 1 t) (ix2 r s)
      = Cert.Spec.sqK (m ((c.tc : Thread nD τ).loc main_arg0)) (m ((c.tc : Thread nD τ).loc main_arg1))
          ⟨t.val / 16, pLt t⟩ ⟨2048 * ((t.val / 4) % 4) + r.val, rowLt t r⟩ ⟨2048 * (t.val % 4) + s.val, colLt t s⟩ := by
  refine (Pay.pay3_apply (Gen.iblk m c 0 t) (Gen.iblk m c 1 t) r s).trans ?_
  unfold Cert.Spec.sqK Cert.Spec.normSq
  refine congrArg₂ max (congrArg₂ (· + ·) (congrArg₂ (· + ·) (Finset.sum_congr rfl fun k _ => ?_)
    (Finset.sum_congr rfl fun k _ => ?_)) (Finset.sum_congr rfl fun k _ => ?_)) rfl
  · exact congrArg₂ (· * ·) (iblk0_apply m c t r k) (iblk0_apply m c t r k)
  · exact congrArg₂ (· * ·) (iblk1_apply m c t s k) (iblk1_apply m c t s k)
  · exact congrArg₂ (· * ·) (congrArg (· * Ideal.ofBits .f32 0xC0000000#32) (iblk0_apply m c t r k)) (iblk1_apply m c t s k)

end Cert.KernelIdeal.Tile

end
-- ==== Proof.Arrays.lean ====
/-
  From the blocks the two output windows write back to the two output arrays.

  The grid is 4 x 4 x 4, point t = 16*p + 4*n + m. The row minima's window holds, per batch p and tile n of the first
  cloud, one block of 2048; its block index at t is (p, 0, n) = (t / 16, 0, (t / 4) % 4), and it is written back after the
  last tile of the second cloud (t % 4 = 3). The column minima's window holds one block of 8192 per batch; its block
  index is (p, 0, 0) = (t / 16, 0, 0), written back after the last point of the batch (t % 16 = 15). If what every
  writing point writes is its block of one whole-array function, and the writing points' blocks cover the array, the
  array ends at that function.
-/
import proofs.«145064_j82746839925382_2_alg».proof.Proof.KernelIdeal.Frame
import Idealize.ShloMosaic.Lib.Pipeline.Value
import Idealize.ShloMosaic.Lib.ValueIdx

set_option maxRecDepth 16384

noncomputable section

namespace Cert.KernelIdeal.Arrays

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Body

variable (m : (ℓ : Loc nD τ sig) → Buf (Elt Ideal) ℓ)

/-! ## The grid's arithmetic -/

/-- A point's number is below 64. -/
theorem lt64 (t : Fin cfg0.N) : t.val < 64 := lt_of_lt_of_eq t.isLt (show cfg0.N = 64 from N_0)
/-- Its batch is one of four. -/
theorem batchLt (t : Fin cfg0.N) : t.val / 16 < 4 := by have := lt64 t; omega
/-- Entry r of the block of tile (t / 4) % 4 is entry 2048 * ((t / 4) % 4) + r of the batch's 8192. -/
theorem rowLt (t : Fin cfg0.N) (r : Fin 2048) : 2048 * ((t.val / 4) % 4) + r.val < 8192 := by have := r.isLt; omega

/-! ## The row minima (window 2) -/

/-- The window's block index at every point, decided over the grid. -/
theorem idx_facts2 : ∀ t : Fin cfg0.N, win0_2.index t (0 : Fin 3) = t.val / 16 ∧ win0_2.index t (1 : Fin 3) = 0
    ∧ win0_2.index t (2 : Fin 3) = (t.val / 4) % 4 :=
  (by decide +kernel : ∀ t : Fin grid0.N, win0_2.index t (0 : Fin 3) = t.val / 16 ∧ win0_2.index t (1 : Fin 3) = 0
    ∧ win0_2.index t (2 : Fin 3) = (t.val / 4) % 4)

/-- An index of the array is in point `t`'s block iff each coordinate is in the block's range on its axis. -/
theorem mem_blk2 (t : Fin cfg0.N) (i : S4x1x8192.Idx) :
    i ∈ ((cfg0.win 2).blk t).view.set ↔ ∀ a : Fin 3, win0_2.index t a * S1x1x2048.size a ≤ (i a).val
      ∧ (i a).val < win0_2.index t a * S1x1x2048.size a + S1x1x2048.size a := by
  show i ∈ ((View.whole main_v0_0).slice (win0_2.rect t)).set ↔ _
  rw [View.set_slice_whole, Rect.mem_set_unit]
  exact Iff.rfl

/-- What a writing point writes back is its block of `G2`, when entry r of its buffer is `G2` at the batch's entry
    2048 * tile + r. -/
theorem flushed2_eq (c : Dev nD) (G2 : S4x1x8192.Idx → EReal)
    (hrow : ∀ t : Fin cfg0.N, t.val % 4 = 3 → ∀ r : Fin 2048,
      (outsAt0 m c t.val t.isLt).1 (ix3 0 0 r)
        = G2 (ix3 (⟨t.val / 16, batchLt t⟩ : Fin 4) 0 (⟨2048 * ((t.val / 4) % 4) + r.val, rowLt t r⟩ : Fin 8192)))
    (t : Fin cfg0.N) (hf : (cfg0.win 2).flush t = true) :
    (dats m 0 c).flushed 2 t = ((cfg0.win 2).blk t).view.read (Elt Ideal) G2 := by
  have h3 : t.val % 4 = 3 := (flush0_2 t).mp hf
  show (cfg0.win 2).cut (grid0.coords t) ((dats m 0 c).after 2 t) = _
  rw [after0_2]
  funext y
  rw [View.read_apply]
  obtain ⟨e0, e1, e2⟩ := idx_facts2 t
  have hy0 : (y 0).val < 1 := (y 0).isLt
  have hy1 : (y 1).val < 1 := (y 1).isLt
  have hy2 : (y 2).val < 2048 := (y 2).isLt
  have eL : (cfg0.win 2).xinj (grid0.coords t) y = ix3 (0 : Fin 1) (0 : Fin 1) (⟨(y 2).val, hy2⟩ : Fin 2048) := by
    funext a; apply Fin.ext
    match a with
    | ⟨0, _⟩ => show (y 0).val = 0; omega
    | ⟨1, _⟩ => show (y 1).val = 0; omega
    | ⟨2, _⟩ => rfl
  have eR : ((cfg0.win 2).blk t).view.emb y
      = ix3 (⟨t.val / 16, batchLt t⟩ : Fin 4) (0 : Fin 1)
          (⟨2048 * ((t.val / 4) % 4) + (y 2).val, rowLt t ⟨(y 2).val, hy2⟩⟩ : Fin 8192) := by
    funext a; apply Fin.ext
    match a with
    | ⟨0, _⟩ => show win0_2.index t (0 : Fin 3) * 1 + 1 * (y 0).val = t.val / 16; omega
    | ⟨1, _⟩ => show win0_2.index t (1 : Fin 3) * 1 + 1 * (y 1).val = 0; omega
    | ⟨2, _⟩ => show win0_2.index t (2 : Fin 3) * 2048 + 1 * (y 2).val = 2048 * ((t.val / 4) % 4) + (y 2).val; omega
  show (outsAt0 m c t.val t.isLt).1 ((cfg0.win 2).xinj (grid0.coords t) y) = G2 (((cfg0.win 2).blk t).view.emb y)
  rw [eL, eR]
  exact hrow t h3 ⟨(y 2).val, hy2⟩

/-- Every entry of the array lies in the block of a writing point: entry j of batch p in that of the last point of the
    sweep of tile j / 2048, t = 16 * p + 4 * (j / 2048) + 3. -/
theorem cover2 (i : S4x1x8192.Idx) :
    ∃ t : Fin cfg0.N, (cfg0.win 2).flush t = true ∧ i ∈ ((cfg0.win 2).blk t).view.set := by
  have h0 : (i 0).val < 4 := (i 0).isLt
  have h1 : (i 1).val < 1 := (i 1).isLt
  have h2 : (i 2).val < 8192 := (i 2).isLt
  have hN : cfg0.N = 64 := N_0
  let t : Fin cfg0.N := ⟨16 * (i 0).val + 4 * ((i 2).val / 2048) + 3, by rw [hN]; omega⟩
  have ht : t.val = 16 * (i 0).val + 4 * ((i 2).val / 2048) + 3 := rfl
  obtain ⟨e0, e1, e2⟩ := idx_facts2 t
  refine ⟨t, (flush0_2 t).mpr (by rw [ht]; omega), ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 2048 ≤ (i 2).val ∧ (i 2).val < win0_2.index t (2 : Fin 3) * 2048 + 2048; omega

/-- The row minima's array after the run is `G2`, when entry r of the buffer after each last point of a sweep is `G2`
    at the batch's entry 2048 * tile + r. -/
theorem final2 (c : Dev nD) (G2 : S4x1x8192.Idx → EReal)
    (hrow : ∀ t : Fin cfg0.N, t.val % 4 = 3 → ∀ r : Fin 2048,
      (outsAt0 m c t.val t.isLt).1 (ix3 0 0 r)
        = G2 (ix3 (⟨t.val / 16, batchLt t⟩ : Fin 4) 0 (⟨2048 * ((t.val / 4) % 4) + r.val, rowLt t r⟩ : Fin 8192))) :
    (dats m 0 c).arrAt 2 cfg0.N = G2 :=
  (dats m 0 c).arrAt_eq_of_cover 2 G2 (flushed2_eq m c G2 hrow) cover2

/-! ## The column minima (window 3) -/

/-- The window's block index at every point, decided over the grid. -/
theorem idx_facts3 : ∀ t : Fin cfg0.N, win0_3.index t (0 : Fin 3) = t.val / 16 ∧ win0_3.index t (1 : Fin 3) = 0
    ∧ win0_3.index t (2 : Fin 3) = 0 :=
  (by decide +kernel : ∀ t : Fin grid0.N, win0_3.index t (0 : Fin 3) = t.val / 16 ∧ win0_3.index t (1 : Fin 3) = 0
    ∧ win0_3.index t (2 : Fin 3) = 0)

/-- An index of the array is in point `t`'s block iff each coordinate is in the block's range on its axis. -/
theorem mem_blk3 (t : Fin cfg0.N) (i : S4x1x8192.Idx) :
    i ∈ ((cfg0.win 3).blk t).view.set ↔ ∀ a : Fin 3, win0_3.index t a * S1x1x8192.size a ≤ (i a).val
      ∧ (i a).val < win0_3.index t a * S1x1x8192.size a + S1x1x8192.size a := by
  show i ∈ ((View.whole main_v0_1).slice (win0_3.rect t)).set ↔ _
  rw [View.set_slice_whole, Rect.mem_set_unit]
  exact Iff.rfl

/-- What a writing point writes back is its block of `G3`, when entry q of its buffer is `G3` at the batch's entry q. -/
theorem flushed3_eq (c : Dev nD) (G3 : S4x1x8192.Idx → EReal)
    (hcol : ∀ t : Fin cfg0.N, t.val % 16 = 15 → ∀ q : Fin 8192,
      (outsAt0 m c t.val t.isLt).2 (ix3 0 0 q) = G3 (ix3 (⟨t.val / 16, batchLt t⟩ : Fin 4) 0 q))
    (t : Fin cfg0.N) (hf : (cfg0.win 3).flush t = true) :
    (dats m 0 c).flushed 3 t = ((cfg0.win 3).blk t).view.read (Elt Ideal) G3 := by
  have h15 : t.val % 16 = 15 := (flush0_3 t).mp hf
  show (cfg0.win 3).cut (grid0.coords t) ((dats m 0 c).after 3 t) = _
  rw [after0_3]
  funext y
  rw [View.read_apply]
  obtain ⟨e0, e1, e2⟩ := idx_facts3 t
  have hy0 : (y 0).val < 1 := (y 0).isLt
  have hy1 : (y 1).val < 1 := (y 1).isLt
  have hy2 : (y 2).val < 8192 := (y 2).isLt
  have eL : (cfg0.win 3).xinj (grid0.coords t) y = ix3 (0 : Fin 1) (0 : Fin 1) (⟨(y 2).val, hy2⟩ : Fin 8192) := by
    funext a; apply Fin.ext
    match a with
    | ⟨0, _⟩ => show (y 0).val = 0; omega
    | ⟨1, _⟩ => show (y 1).val = 0; omega
    | ⟨2, _⟩ => rfl
  have eR : ((cfg0.win 3).blk t).view.emb y
      = ix3 (⟨t.val / 16, batchLt t⟩ : Fin 4) (0 : Fin 1) (⟨(y 2).val, hy2⟩ : Fin 8192) := by
    funext a; apply Fin.ext
    match a with
    | ⟨0, _⟩ => show win0_3.index t (0 : Fin 3) * 1 + 1 * (y 0).val = t.val / 16; omega
    | ⟨1, _⟩ => show win0_3.index t (1 : Fin 3) * 1 + 1 * (y 1).val = 0; omega
    | ⟨2, _⟩ => show win0_3.index t (2 : Fin 3) * 8192 + 1 * (y 2).val = (y 2).val; omega
  show (outsAt0 m c t.val t.isLt).2 ((cfg0.win 3).xinj (grid0.coords t) y) = G3 (((cfg0.win 3).blk t).view.emb y)
  rw [eL, eR]
  exact hcol t h15 ⟨(y 2).val, hy2⟩

/-- Every entry of the array lies in the block of a writing point: batch p's in that of the batch's last point,
    t = 16 * p + 15. -/
theorem cover3 (i : S4x1x8192.Idx) :
    ∃ t : Fin cfg0.N, (cfg0.win 3).flush t = true ∧ i ∈ ((cfg0.win 3).blk t).view.set := by
  have h0 : (i 0).val < 4 := (i 0).isLt
  have h1 : (i 1).val < 1 := (i 1).isLt
  have h2 : (i 2).val < 8192 := (i 2).isLt
  have hN : cfg0.N = 64 := N_0
  let t : Fin cfg0.N := ⟨16 * (i 0).val + 15, by rw [hN]; omega⟩
  have ht : t.val = 16 * (i 0).val + 15 := rfl
  obtain ⟨e0, e1, e2⟩ := idx_facts3 t
  refine ⟨t, (flush0_3 t).mpr (by rw [ht]; omega), ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 8192 ≤ (i 2).val ∧ (i 2).val < win0_3.index t (2 : Fin 3) * 8192 + 8192; omega

/-- The column minima's array after the run is `G3`, when entry q of the buffer after each batch's last point is `G3`
    at the batch's entry q. -/
theorem final3 (c : Dev nD) (G3 : S4x1x8192.Idx → EReal)
    (hcol : ∀ t : Fin cfg0.N, t.val % 16 = 15 → ∀ q : Fin 8192,
      (outsAt0 m c t.val t.isLt).2 (ix3 0 0 q) = G3 (ix3 (⟨t.val / 16, batchLt t⟩ : Fin 4) 0 q)) :
    (dats m 0 c).arrAt 3 cfg0.N = G3 :=
  (dats m 0 c).arrAt_eq_of_cover 3 G3 (flushed3_eq m c G3 hcol) cover3

end Cert.KernelIdeal.Arrays

end
-- ==== Proof.Sweep.lean ====
/-
  The running minima over the grid, by induction on the point.

  Point t = 16*p + 4*n + m' works on batch p, on the tile n of 2048 points of the first cloud and the tile m' of 2048
  points of the second. After it, the row minima's block holds, for point 2048*n + r of the first cloud, the least
  clamped squared distance to the points of the second cloud seen so far in this sweep: those below 2048*(m'+1). The
  column minima's block holds, for point q of the second cloud, the least clamped squared distance to the points of
  the first cloud seen so far in this batch: the tiles before n, and tile n too if q's own tile q / 2048 has already
  been passed in this sweep (q / 2048 ≤ m'). A minimum is carried by its lower bounds: x is below it exactly when x
  is below every term. Each point lowers the row minima by its tile's rows and one slice of the column minima by its
  tile's columns; where a sweep or a batch begins the minima start from +∞, which every x is below. After the last
  point of a sweep the row minima are the infimum over the whole second cloud, after the last point of a batch the
  column minima are the infimum over the whole first cloud, and these are what is written back.
-/
import proofs.«145064_j82746839925382_2_alg».proof.Proof.Pieces
import proofs.«145064_j82746839925382_2_alg».proof.Proof.Payload
import proofs.«145064_j82746839925382_2_alg».proof.Proof.Tile
import proofs.«145064_j82746839925382_2_alg».proof.Proof.Arrays
import proofs.«145064_j82746839925382_2_alg».proof.Proof.Spec

set_option maxRecDepth 16384

noncomputable section

namespace Cert.KernelIdeal.Sweep

open Idealize.ShloMosaic Idealize.ShloMosaic.TcCoe Idealize.SL.Sem Idealize.ShloMosaic.ValueIdx
open Cert.KernelIdeal Cert.KernelIdeal.Gen Cert.KernelIdeal.Body Cert.KernelIdeal.Val

variable (m : (ℓ : Loc nD τ sig) → Buf (Elt Ideal) ℓ) (c : Dev nD)

/-- The first cloud as the program finds it. -/
abbrev cloudA : Cert.Spec.Pts.Idx → EReal := m ((c.tc : Thread nD τ).loc main_arg0)
/-- The second cloud as the program finds it. -/
abbrev cloudB : Cert.Spec.Pts.Idx → EReal := m ((c.tc : Thread nD τ).loc main_arg1)

/-- The matrix of clamped squared distances of the tile at point `t`. -/
abbrev tileAt (t : Fin cfg0.N) : FVec Ideal S2048x2048 .f32 :=
  k0_pay3 (F := Ideal) (iblk m c 0 t) (iblk m c 1 t)

/-! ## One tile -/

/-- Entry (r, s) of the tile at point `t`, with the batch and the two points named by their numbers. -/
theorem tile_at (t : Fin cfg0.N) (pp : Fin 4) (hp : pp.val = t.val / 16) (r s : Fin 2048) (nn qq : Fin 8192)
    (hn : nn.val = 2048 * ((t.val / 4) % 4) + r.val) (hq : qq.val = 2048 * (t.val % 4) + s.val) :
    tileAt m c t (ix2 r s) = Cert.Spec.sqK (cloudA m c) (cloudB m c) pp nn qq := by
  obtain rfl : pp = ⟨t.val / 16, Tile.pLt t⟩ := Fin.ext hp
  obtain rfl : nn = ⟨2048 * ((t.val / 4) % 4) + r.val, Tile.rowLt t r⟩ := Fin.ext hn
  obtain rfl : qq = ⟨2048 * (t.val % 4) + s.val, Tile.colLt t s⟩ := Fin.ext hq
  exact Tile.tile_sq m c t r s

/-- Below every entry of row r of the tile is below the distances from the row's point to the tile's 2048 points of
    the second cloud. -/
theorem row_new (t : Fin cfg0.N) (pp : Fin 4) (hp : pp.val = t.val / 16) (r : Fin 2048) (nn : Fin 8192)
    (hn : nn.val = 2048 * ((t.val / 4) % 4) + r.val) (x : EReal) :
    (∀ s : Fin 2048, x ≤ tileAt m c t (ix2 r s))
      ↔ ∀ q : Fin 8192, 2048 * (t.val % 4) ≤ q.val → q.val < 2048 * (t.val % 4 + 1) →
          x ≤ Cert.Spec.sqK (cloudA m c) (cloudB m c) pp nn q := by
  constructor
  · intro h q h1 h2
    have hs := h ⟨q.val - 2048 * (t.val % 4), by omega⟩
    rwa [tile_at m c t pp hp r _ nn q hn (by show q.val = 2048 * (t.val % 4) + (q.val - 2048 * (t.val % 4)); omega)] at hs
  · intro h s
    have hs := s.isLt
    rw [tile_at m c t pp hp r s nn ⟨2048 * (t.val % 4) + s.val, by omega⟩ hn rfl]
    exact h _ (by show 2048 * (t.val % 4) ≤ 2048 * (t.val % 4) + s.val; omega)
      (by show 2048 * (t.val % 4) + s.val < 2048 * (t.val % 4 + 1); omega)

/-- Below every entry of column s of the tile is below the distances to the column's point from the tile's 2048
    points of the first cloud. -/
theorem col_new (t : Fin cfg0.N) (pp : Fin 4) (hp : pp.val = t.val / 16) (s : Fin 2048) (qq : Fin 8192)
    (hq : qq.val = 2048 * (t.val % 4) + s.val) (x : EReal) :
    (∀ r : Fin 2048, x ≤ tileAt m c t (ix2 r s))
      ↔ ∀ n : Fin 8192, 2048 * ((t.val / 4) % 4) ≤ n.val → n.val < 2048 * ((t.val / 4) % 4 + 1) →
          x ≤ Cert.Spec.sqK (cloudA m c) (cloudB m c) pp n qq := by
  constructor
  · intro h n h1 h2
    have hr := h ⟨n.val - 2048 * ((t.val / 4) % 4), by omega⟩
    rwa [tile_at m c t pp hp _ s n qq
      (by show n.val = 2048 * ((t.val / 4) % 4) + (n.val - 2048 * ((t.val / 4) % 4)); omega) hq] at hr
  · intro h r
    have hr := r.isLt
    rw [tile_at m c t pp hp r s ⟨2048 * ((t.val / 4) % 4) + r.val, by omega⟩ qq rfl hq]
    exact h _ (by show 2048 * ((t.val / 4) % 4) ≤ 2048 * ((t.val / 4) % 4) + r.val; omega)
      (by show 2048 * ((t.val / 4) % 4) + r.val < 2048 * ((t.val / 4) % 4 + 1); omega)

/-! ## One point's step -/

/-- The row minima after point `t`, from what they were before it: if the previous block is bounded below exactly
    by the distances to the second cloud's points before this tile, the new block is bounded below exactly by those
    up to the end of this tile. -/
theorem row_step (t : Fin cfg0.N) (prev2 : Vec Ideal S1x1x2048 .f32)
    (hprev : ∀ (pp : Fin 4) (r : Fin 2048) (nn : Fin 8192), pp.val = t.val / 16 →
      nn.val = 2048 * ((t.val / 4) % 4) + r.val → ∀ x : EReal,
      (x ≤ prev2 (ix3 0 0 r) ↔ ∀ q : Fin 8192, q.val < 2048 * (t.val % 4) →
        x ≤ Cert.Spec.sqK (cloudA m c) (cloudB m c) pp nn q))
    (pp : Fin 4) (r : Fin 2048) (nn : Fin 8192) (hp : pp.val = t.val / 16)
    (hn : nn.val = 2048 * ((t.val / 4) % 4) + r.val) (x : EReal) :
    x ≤ k0_pay5 (F := Ideal) (iblk m c 0 t) (iblk m c 1 t) prev2 (ix3 0 0 r)
      ↔ ∀ q : Fin 8192, q.val < 2048 * (t.val % 4 + 1) → x ≤ Cert.Spec.sqK (cloudA m c) (cloudB m c) pp nn q := by
  refine (Pay.pay5_le _ _ _ r x).trans ?_
  refine (and_congr (hprev pp r nn hp hn x) (row_new m c t pp hp r nn hn x)).trans ?_
  constructor
  · rintro ⟨h1, h2⟩ q hq
    by_cases hlt : q.val < 2048 * (t.val % 4)
    · exact h1 q hlt
    · exact h2 q (by omega) hq
  · intro h
    exact ⟨fun q hq => h q (by omega), fun q _ hq => h q hq⟩

/-- The column minima after point `t`, from what they were before it. The new block is the previous one outside the
    slice of the point's tile of the second cloud, and inside it the previous value lowered by the tile's column. If
    the previous block at q is bounded below exactly by the distances from the first cloud's points below `B' q`,
    where `B' q` ends at this tile's start inside the slice and is already the new bound outside it, the new block
    is bounded below exactly by the distances from the points below the new bound. -/
theorem col_step (t : Fin cfg0.N) (prev3 O3 : Vec Ideal S1x1x8192 .f32) (B' : Fin 8192 → ℕ)
    (hin : ∀ (y : S1x1x8192.Idx) (s : Fin 2048), (y 2).val = 2048 * (t.val % 4) + s.val →
      O3 y = k0_pay2 (F := Ideal) (tileAt m c t) (sliceOf (grid0.coords t) prev3) (ix3 0 0 s))
    (hout : ∀ y : S1x1x8192.Idx, (y 2).val < 2048 * (t.val % 4) ∨ 2048 * (t.val % 4) + 2048 ≤ (y 2).val →
      O3 y = prev3 y)
    (hprev : ∀ (pp : Fin 4) (q : Fin 8192), pp.val = t.val / 16 → ∀ x : EReal,
      (x ≤ prev3 (ix3 0 0 q) ↔ ∀ n : Fin 8192, n.val < B' q → x ≤ Cert.Spec.sqK (cloudA m c) (cloudB m c) pp n q))
    (hBin : ∀ q : Fin 8192, q.val / 2048 = t.val % 4 → B' q = 2048 * ((t.val / 4) % 4))
    (hBout : ∀ q : Fin 8192, q.val / 2048 ≠ t.val % 4 →
      B' q = 2048 * ((t.val / 4) % 4 + (if q.val / 2048 ≤ t.val % 4 then 1 else 0)))
    (pp : Fin 4) (q : Fin 8192) (hp : pp.val = t.val / 16) (x : EReal) :
    x ≤ O3 (ix3 0 0 q)
      ↔ ∀ n : Fin 8192, n.val < 2048 * ((t.val / 4) % 4 + (if q.val / 2048 ≤ t.val % 4 then 1 else 0)) →
          x ≤ Cert.Spec.sqK (cloudA m c) (cloudB m c) pp n q := by
  have hqlt := q.isLt
  by_cases hq : q.val / 2048 = t.val % 4
  · have hy : ((ix3 (0 : Fin 1) (0 : Fin 1) q : S1x1x8192.Idx) 2).val
        = 2048 * (t.val % 4) + (⟨q.val - 2048 * (t.val % 4), by omega⟩ : Fin 2048).val := by
      show q.val = 2048 * (t.val % 4) + (q.val - 2048 * (t.val % 4)); omega
    rw [hin _ _ hy]
    refine (Pay.pay2_le _ _ _ x).trans ?_
    have e1 : sliceOf (grid0.coords t) prev3 (ix3 0 0 (⟨q.val - 2048 * (t.val % 4), by omega⟩ : Fin 2048))
        = prev3 (ix3 0 0 q) :=
      sliceOf_apply (grid0.coords t) prev3 (2048 * (t.val % 4)) (hoff_val t) (ix3 0 0 q) _ hy
    have h1 : x ≤ sliceOf (grid0.coords t) prev3 (ix3 0 0 (⟨q.val - 2048 * (t.val % 4), by omega⟩ : Fin 2048))
        ↔ ∀ n : Fin 8192, n.val < 2048 * ((t.val / 4) % 4) → x ≤ Cert.Spec.sqK (cloudA m c) (cloudB m c) pp n q := by
      rw [e1, ← hBin q hq]; exact hprev pp q hp x
    refine (and_congr h1 (col_new m c t pp hp _ q hy x)).trans ?_
    rw [if_pos (le_of_eq hq)]
    constructor
    · rintro ⟨h1, h2⟩ n hn
      by_cases hlt : n.val < 2048 * ((t.val / 4) % 4)
      · exact h1 n hlt
      · exact h2 n (by omega) hn
    · intro h
      exact ⟨fun n hn => h n (by omega), fun n _ hn => h n hn⟩
  · rw [hout (ix3 0 0 q) (by show q.val < 2048 * (t.val % 4) ∨ 2048 * (t.val % 4) + 2048 ≤ q.val; omega),
      ← hBout q hq]
    exact hprev pp q hp x

/-! ## The invariant -/

/-- After point `t` the row minima's block holds, for each point of the first cloud's tile, the least clamped squared
    distance to the second cloud's points up to the end of the point's tile — said through its lower bounds. -/
def Inv2 (t : Fin cfg0.N) : Prop :=
  ∀ (pp : Fin 4) (r : Fin 2048) (nn : Fin 8192), pp.val = t.val / 16 → nn.val = 2048 * ((t.val / 4) % 4) + r.val →
    ∀ x : EReal, (x ≤ (outsAt0 m c t.val t.isLt).1 (ix3 0 0 r)
      ↔ ∀ q : Fin 8192, q.val < 2048 * (t.val % 4 + 1) → x ≤ Cert.Spec.sqK (cloudA m c) (cloudB m c) pp nn q)

/-- After point `t` the column minima's block holds, for each point q of the second cloud, the least clamped squared
    distance to the first cloud's points of the tiles before the point's, and of the point's tile too once q's own tile
    has been passed in the sweep. -/
def Inv3 (t : Fin cfg0.N) : Prop :=
  ∀ (pp : Fin 4) (q : Fin 8192), pp.val = t.val / 16 →
    ∀ x : EReal, (x ≤ (outsAt0 m c t.val t.isLt).2 (ix3 0 0 q)
      ↔ ∀ n : Fin 8192, n.val < 2048 * ((t.val / 4) % 4 + (if q.val / 2048 ≤ t.val % 4 then 1 else 0)) →
          x ≤ Cert.Spec.sqK (cloudA m c) (cloudB m c) pp n q)

/-- Every number is below +∞, and no point comes before the first. -/
theorem le_top_iff_vacuous {ι : Type} (x : EReal) (f : ι → EReal) (g : ι → ℕ) :
    (x ≤ (⊤ : EReal) ↔ ∀ i : ι, g i < 0 → x ≤ f i) :=
  ⟨fun _ i hi => absurd hi (Nat.not_lt_zero _), fun _ => le_top⟩

/-- Where a batch begins both minima start from +∞ and take in the point's tile. -/
theorem inv_A (t : Fin cfg0.N) (h16 : t.val % 16 = 0) : Inv2 m c t ∧ Inv3 m c t := by
  have e := outsAt0_A m c t h16
  have e1 : (outsAt0 m c t.val t.isLt).1
      = k0_pay5 (F := Ideal) (iblk m c 0 t) (iblk m c 1 t) (k0_pay4 (F := Ideal)) := by
    rw [e]; dsimp only; rw [out_A_2]
  constructor
  · intro pp r nn hp hn x
    rw [e1]
    refine row_step m c t _ (fun pp r nn _ _ x => ?_) pp r nn hp hn x
    rw [Pay.pay4_apply, show 2048 * (t.val % 4) = 0 from by omega]
    exact le_top_iff_vacuous x _ _
  · intro pp q hp x
    refine col_step m c t (k0_pay1 (F := Ideal)) _ (fun _ => 0) (fun y s hy => ?_) (fun y hy => ?_)
      (fun pp q _ x => ?_) (fun q hq => ?_) (fun q hq => ?_) pp q hp x
    · rw [e]; dsimp only
      exact out_A_3_in _ _ _ _ _ _ _ _ _ _ _ _ _ _ _ y s (by omega)
    · rw [e]; dsimp only
      exact out_A_3_out _ _ _ _ _ _ _ _ _ _ _ _ _ _ _ y (by omega)
    · rw [Pay.pay1_apply]
      exact le_top_iff_vacuous x _ _
    · show 0 = 2048 * ((t.val / 4) % 4); omega
    · show 0 = 2048 * ((t.val / 4) % 4 + (if q.val / 2048 ≤ t.val % 4 then 1 else 0))
      rw [if_neg (by omega)]; omega

/-- Where a sweep begins inside a batch the row minima start from +∞; the column minima continue from the point
    before, which ended the sweep of the tile before. -/
theorem inv_C (t : Fin cfg0.N) (h4 : t.val % 4 = 0) (h16 : ¬t.val % 16 = 0)
    (ih : Inv2 m c ⟨t.val - 1, prevLt t⟩ ∧ Inv3 m c ⟨t.val - 1, prevLt t⟩) : Inv2 m c t ∧ Inv3 m c t := by
  have ih3 : ∀ (pp : Fin 4) (q : Fin 8192), pp.val = (t.val - 1) / 16 → ∀ x : EReal,
      (x ≤ (outsAt0 m c (t.val - 1) (prevLt t)).2 (ix3 0 0 q)
        ↔ ∀ n : Fin 8192, n.val < 2048 * (((t.val - 1) / 4) % 4 + (if q.val / 2048 ≤ (t.val - 1) % 4 then 1 else 0)) →
            x ≤ Cert.Spec.sqK (cloudA m c) (cloudB m c) pp n q) := ih.2
  have e := outsAt0_C m c t h4 h16
  have e1 : (outsAt0 m c t.val t.isLt).1
      = k0_pay5 (F := Ideal) (iblk m c 0 t) (iblk m c 1 t) (k0_pay4 (F := Ideal)) := by
    rw [e]; dsimp only; rw [out_C_2]
  constructor
  · intro pp r nn hp hn x
    rw [e1]
    refine row_step m c t _ (fun pp r nn _ _ x => ?_) pp r nn hp hn x
    rw [Pay.pay4_apply, show 2048 * (t.val % 4) = 0 from by omega]
    exact le_top_iff_vacuous x _ _
  · intro pp q hp x
    refine col_step m c t (outsAt0 m c (t.val - 1) (prevLt t)).2 _
      (fun q => 2048 * (((t.val - 1) / 4) % 4 + (if q.val / 2048 ≤ (t.val - 1) % 4 then 1 else 0)))
      (fun y s hy => ?_) (fun y hy => ?_) (fun pp q hp x => ?_) (fun q hq => ?_) (fun q hq => ?_) pp q hp x
    · rw [e]; dsimp only
      exact out_C_3_in _ _ _ _ _ _ _ _ _ _ _ _ _ _ _ (2048 * (t.val % 4)) (hoff_val t) y s hy
    · rw [e]; dsimp only
      exact out_C_3_out _ _ _ _ _ _ _ _ _ _ _ _ _ _ _ (2048 * (t.val % 4)) (hoff_val t) y hy
    · exact ih3 pp q (by omega) x
    · have hqlt := q.isLt
      show 2048 * (((t.val - 1) / 4) % 4 + (if q.val / 2048 ≤ (t.val - 1) % 4 then 1 else 0)) = 2048 * ((t.val / 4) % 4)
      rw [if_pos (by omega)]; omega
    · have hqlt := q.isLt
      show 2048 * (((t.val - 1) / 4) % 4 + (if q.val / 2048 ≤ (t.val - 1) % 4 then 1 else 0))
        = 2048 * ((t.val / 4) % 4 + (if q.val / 2048 ≤ t.val % 4 then 1 else 0))
      rw [if_pos (by omega), if_neg (by omega)]; omega

/-- In the middle of a sweep both minima continue from the point before, of the same tile of the first cloud and the
    tile before of the second. -/
theorem inv_B (t : Fin cfg0.N) (h4 : ¬t.val % 4 = 0) (h16 : ¬t.val % 16 = 0)
    (ih : Inv2 m c ⟨t.val - 1, prevLt t⟩ ∧ Inv3 m c ⟨t.val - 1, prevLt t⟩) : Inv2 m c t ∧ Inv3 m c t := by
  have ih2 : ∀ (pp : Fin 4) (r : Fin 2048) (nn : Fin 8192), pp.val = (t.val - 1) / 16 →
      nn.val = 2048 * (((t.val - 1) / 4) % 4) + r.val → ∀ x : EReal,
      (x ≤ (outsAt0 m c (t.val - 1) (prevLt t)).1 (ix3 0 0 r)
        ↔ ∀ q : Fin 8192, q.val < 2048 * ((t.val - 1) % 4 + 1) → x ≤ Cert.Spec.sqK (cloudA m c) (cloudB m c) pp nn q) := ih.1
  have ih3 : ∀ (pp : Fin 4) (q : Fin 8192), pp.val = (t.val - 1) / 16 → ∀ x : EReal,
      (x ≤ (outsAt0 m c (t.val - 1) (prevLt t)).2 (ix3 0 0 q)
        ↔ ∀ n : Fin 8192, n.val < 2048 * (((t.val - 1) / 4) % 4 + (if q.val / 2048 ≤ (t.val - 1) % 4 then 1 else 0)) →
            x ≤ Cert.Spec.sqK (cloudA m c) (cloudB m c) pp n q) := ih.2
  have e := outsAt0_B m c t h4 h16
  have e1 : (outsAt0 m c t.val t.isLt).1
      = k0_pay5 (F := Ideal) (iblk m c 0 t) (iblk m c 1 t) (outsAt0 m c (t.val - 1) (prevLt t)).1 := by
    rw [e]; dsimp only; rw [out_B_2]
  constructor
  · intro pp r nn hp hn x
    rw [e1]
    refine row_step m c t _ (fun pp r nn hp hn x => ?_) pp r nn hp hn x
    refine (ih2 pp r nn (by omega) (by omega) x).trans ?_
    rw [show (t.val - 1) % 4 + 1 = t.val % 4 from by omega]
  · intro pp q hp x
    refine col_step m c t (outsAt0 m c (t.val - 1) (prevLt t)).2 _
      (fun q => 2048 * (((t.val - 1) / 4) % 4 + (if q.val / 2048 ≤ (t.val - 1) % 4 then 1 else 0)))
      (fun y s hy => ?_) (fun y hy => ?_) (fun pp q hp x => ?_) (fun q hq => ?_) (fun q hq => ?_) pp q hp x
    · rw [e]; dsimp only
      exact out_B_3_in _ _ _ _ _ _ _ _ _ _ _ _ _ _ _ _ (2048 * (t.val % 4)) (hoff_val t) y s hy
    · rw [e]; dsimp only
      exact out_B_3_out _ _ _ _ _ _ _ _ _ _ _ _ _ _ _ _ (2048 * (t.val % 4)) (hoff_val t) y hy
    · exact ih3 pp q (by omega) x
    · show 2048 * (((t.val - 1) / 4) % 4 + (if q.val / 2048 ≤ (t.val - 1) % 4 then 1 else 0)) = 2048 * ((t.val / 4) % 4)
      rw [if_neg (by omega)]; omega
    · show 2048 * (((t.val - 1) / 4) % 4 + (if q.val / 2048 ≤ (t.val - 1) % 4 then 1 else 0))
        = 2048 * ((t.val / 4) % 4 + (if q.val / 2048 ≤ t.val % 4 then 1 else 0))
      by_cases hle : q.val / 2048 ≤ t.val % 4
      · rw [if_pos hle, if_pos (by omega)]; omega
      · rw [if_neg hle, if_neg (by omega)]; omega

/-- The invariant at every point, by induction on the point. -/
theorem invAt : ∀ (n : ℕ) (hn : n < cfg0.N), Inv2 m c ⟨n, hn⟩ ∧ Inv3 m c ⟨n, hn⟩
  | 0, hn => inv_A m c ⟨0, hn⟩ (Nat.zero_mod 16)
  | n + 1, hn => by
    have ih := invAt n (Nat.lt_of_succ_lt hn)
    by_cases h16 : (n + 1) % 16 = 0
    · exact inv_A m c ⟨n + 1, hn⟩ h16
    · by_cases h4 : (n + 1) % 4 = 0
      · exact inv_C m c ⟨n + 1, hn⟩ h4 h16 ih
      · exact inv_B m c ⟨n + 1, hn⟩ h4 h16 ih

/-- The row minima after point `t`, in the form with the batch and the point of the first cloud written out. -/
theorem I2 (t : Fin cfg0.N) (r : Fin 2048) (x : EReal) :
    x ≤ (outsAt0 m c t.val t.isLt).1 (ix3 0 0 r)
      ↔ ∀ q : Fin 8192, q.val < 2048 * (t.val % 4 + 1) →
          x ≤ Cert.Spec.sqK (cloudA m c) (cloudB m c) ⟨t.val / 16, Arrays.batchLt t⟩
            ⟨2048 * ((t.val / 4) % 4) + r.val, Arrays.rowLt t r⟩ q :=
  (invAt m c t.val t.isLt).1 _ r _ rfl rfl x

/-- The column minima after point `t`, in the form with the batch written out. -/
theorem I3 (t : Fin cfg0.N) (q : Fin 8192) (x : EReal) :
    x ≤ (outsAt0 m c t.val t.isLt).2 (ix3 0 0 q)
      ↔ ∀ n : Fin 8192, n.val < 2048 * ((t.val / 4) % 4 + (if q.val / 2048 ≤ t.val % 4 then 1 else 0)) →
          x ≤ Cert.Spec.sqK (cloudA m c) (cloudB m c) ⟨t.val / 16, Arrays.batchLt t⟩ n q :=
  (invAt m c t.val t.isLt).2 _ q rfl x

/-! ## What is written back, and the two arrays -/

/-- The row minima's array as a function of the clouds: at (p, 0, j) the least clamped squared distance from point j
    of the first cloud's batch p to a point of the second. -/
abbrev G2 : S4x1x8192.Idx → EReal := fun j => Cert.Spec.nearB (cloudA m c) (cloudB m c) (ix2 (j 0) (j 2))
/-- The column minima's array: at (p, 0, j) the least clamped squared distance to point j of the second cloud's batch
    p from a point of the first. -/
abbrev G3 : S4x1x8192.Idx → EReal := fun j => Cert.Spec.nearA (cloudA m c) (cloudB m c) (ix2 (j 0) (j 2))

/-- After the last point of a sweep the row minima's block is the infimum over the whole second cloud. -/
theorem hrow (t : Fin cfg0.N) (h3 : t.val % 4 = 3) (r : Fin 2048) :
    (outsAt0 m c t.val t.isLt).1 (ix3 0 0 r)
      = G2 m c (ix3 (⟨t.val / 16, Arrays.batchLt t⟩ : Fin 4) 0
          (⟨2048 * ((t.val / 4) % 4) + r.val, Arrays.rowLt t r⟩ : Fin 8192)) := by
  refine eq_of_forall_le_iff fun x => ?_
  show x ≤ _ ↔ x ≤ ⨅ q : Fin 8192, Cert.Spec.sqK (cloudA m c) (cloudB m c) ⟨t.val / 16, Arrays.batchLt t⟩
    ⟨2048 * ((t.val / 4) % 4) + r.val, Arrays.rowLt t r⟩ q
  rw [le_iInf_iff]
  refine (I2 m c t r x).trans ?_
  exact ⟨fun h q => h q (by have := q.isLt; omega), fun h q _ => h q⟩

/-- After the last point of a batch the column minima's block is the infimum over the whole first cloud. -/
theorem hcol (t : Fin cfg0.N) (h15 : t.val % 16 = 15) (q : Fin 8192) :
    (outsAt0 m c t.val t.isLt).2 (ix3 0 0 q) = G3 m c (ix3 (⟨t.val / 16, Arrays.batchLt t⟩ : Fin 4) 0 q) := by
  refine eq_of_forall_le_iff fun x => ?_
  show x ≤ _ ↔ x ≤ ⨅ n : Fin 8192, Cert.Spec.sqK (cloudA m c) (cloudB m c) ⟨t.val / 16, Arrays.batchLt t⟩ n q
  rw [le_iInf_iff]
  refine (I3 m c t q x).trans ?_
  have hq := q.isLt
  rw [if_pos (by omega)]
  exact ⟨fun h n => h n (by have := n.isLt; omega), fun h n _ => h n⟩

/-- The row minima's array after the run. -/
theorem arr2 : (dats m 0 c).arrAt 2 cfg0.N
    = fun j : S4x1x8192.Idx => Cert.Spec.nearB (m ((c.tc : Thread nD τ).loc main_arg0))
        (m ((c.tc : Thread nD τ).loc main_arg1)) (ix2 (j 0) (j 2)) :=
  Arrays.final2 m c (G2 m c) (hrow m c)

/-- The column minima's array after the run. -/
theorem arr3 : (dats m 0 c).arrAt 3 cfg0.N
    = fun j : S4x1x8192.Idx => Cert.Spec.nearA (m ((c.tc : Thread nD τ).loc main_arg0))
        (m ((c.tc : Thread nD τ).loc main_arg1)) (ix2 (j 0) (j 2)) :=
  Arrays.final3 m c (G3 m c) (hcol m c)

end Cert.KernelIdeal.Sweep

end
-- ==== Proof.TailSide.lean ====
/-
  The lines of the program after its one region, read as a function of the two arrays the region leaves.

  After the region the program drops the unit axis of each output array, takes square roots, sums each array, divides
  each sum by the number of entries, adds the two means and halves: the shared `tail` of the specification, applied to
  the two arrays with their unit axis dropped. Dropping the unit axis reads entry `(p, 0, n)` at `(p, n)`.
-/
import proofs.«145064_j82746839925382_2_alg».proof.Proof.Gen.KernelIdeal.Frame
import proofs.«145064_j82746839925382_2_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.TailSide

open Idealize.ShloMosaic Idealize.ShloMosaic.TcCoe Idealize.SL.Sem
open Cert.KernelIdeal Cert.KernelIdeal.Gen
open Idealize.ShloMosaic.Pipeline (Dat)

/-- Dropping the unit axis: entry `(p, n)` of the result is entry `(p, 0, n)` of the operand. -/
theorem reshape_apply (x : FVec Ideal S4x1x8192 .f32) (p : Fin 4) (n : Fin 8192) :
    shapeCast S4x8192 x shapeCasts_S4x1x8192_S4x8192 (ValueIdx.ix2 p n) = x (ValueIdx.ix3 p (0 : Fin 1) n) :=
  shapeCast_apply x _ _ _ (by
    rw [Shape.rowMajor_val_three, Shape.rowMajor_val_two]
    show (p.val * 1 + 0) * 8192 + n.val = p.val * 8192 + n.val
    omega)

/-- The program's result is an unscoped buffer and no array of the region: it bypasses the region. -/
theorem result_bypasses : main_v10 ∈ Pipeline.restRefs sig (cfgs 0).spec :=
  Pipeline.mem_restRefs_of main_v10 rfl (by decide)

variable [Cert.KernelIdeal.Facts]

variable (m : (ℓ : Loc nD τ sig) → Buf (Elt Ideal) ℓ)
variable (dats : (p : Fin 1) → (c : Dev nD) → Dat τ (Elt Ideal) Unit ℕ (UR sig nD τ) ℕ (cfgs p) c)

/-- The region's exit contents read at the first output array are what the proof data compute for it. -/
theorem exit_out0 (c : Dev nD) :
    Pipeline.withArrays (cfgs 0).spec c (V0 m c) (fun w => (dats 0 c).arrAt w (cfgs 0).N) (Proc.devRef .tc main_v0_0)
      = (dats 0 c).arrAt 2 cfg0.N :=
  Pipeline.withArrays_arr spec0 launch0.win.arr_inj c (V0 m c) (fun w => (dats 0 c).arrAt w (cfgs 0).N) 2

/-- The same at the second output array. -/
theorem exit_out1 (c : Dev nD) :
    Pipeline.withArrays (cfgs 0).spec c (V0 m c) (fun w => (dats 0 c).arrAt w (cfgs 0).N) (Proc.devRef .tc main_v0_1)
      = (dats 0 c).arrAt 3 cfg0.N :=
  Pipeline.withArrays_arr spec0 launch0.win.arr_inj c (V0 m c) (fun w => (dats 0 c).arrAt w (cfgs 0).N) 3

/-- The program's result after the lines that follow the region, as the shared tail of the two arrays the region
    leaves, each with its unit axis dropped. -/
theorem tail_value (c : Dev nD) :
    Pipeline.afterTail₀ cfgs dats 0 (V0 m) [hostOps1] c main_v10
      = Cert.Spec.tail reducesTo_S4x8192_S_d0_1 h_S_
          (shapeCast S4x8192 ((dats 0 c).arrAt 2 cfg0.N) shapeCasts_S4x1x8192_S4x8192)
          (shapeCast S4x8192 ((dats 0 c).arrAt 3 cfg0.N) shapeCasts_S4x1x8192_S4x8192) := by
  unfold Pipeline.afterTail₀
  show StableHlo.after hostOps1 _ (Proc.devRef .tc main_v10) = _
  after_results
  rw [exit_out0 m dats c, exit_out1 m dats c]
  rfl

/-- The frame run's post read at the program's result and at its two arguments. -/
theorem tail_result (r : PUnit × MemSt nD τ sig (Elt Ideal))
    (h : Pipeline.FramePost cfgs dats 0 (Pipeline.afterTail₀ cfgs dats 0 (V0 m) [hostOps1]) r) (c : Dev nD) :
    r.2.mem ((c.tc : Thread nD τ).loc main_v10)
      = Cert.Spec.tail reducesTo_S4x8192_S_d0_1 h_S_
          (shapeCast S4x8192 ((dats 0 c).arrAt 2 cfg0.N) shapeCasts_S4x1x8192_S4x8192)
          (shapeCast S4x8192 ((dats 0 c).arrAt 3 cfg0.N) shapeCasts_S4x1x8192_S4x8192) :=
  ((h c).2 main_v10 result_bypasses).trans (tail_value m dats c)

/-- The same post read at the two argument arrays: inputs the region only reads, they end as launched. -/
theorem args_kept (hA : ∀ c w, (dats 0 c).A w = V m c (Pipeline.arrRef spec0 w))
    (r : PUnit × MemSt nD τ sig (Elt Ideal))
    (h : Pipeline.FramePost cfgs dats 0 (Pipeline.afterTail₀ cfgs dats 0 (V0 m) [hostOps1]) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1) :=
  ⟨((h c).1 0).trans (((dats 0 c).arrAt_in 0 rfl _).trans ((hA c 0).trans (V_main_arg0 m c))),
   ((h c).1 1).trans (((dats 0 c).arrAt_in 1 rfl _).trans ((hA c 1).trans (V_main_arg1 m c)))⟩

end Cert.KernelIdeal.TailSide

end
-- ==== Proof.KernelValue.lean ====
/-
  The idealized kernel's run with its result named: the two output arrays end holding, for each point of the first cloud
  the least clamped squared distance to the second cloud, and for each point of the second the least to the first; the
  operations after the call turn the two arrays (each read as four rows of 8192) into the mean of the roots of the one
  plus the mean of the roots of the other, halved.
-/
import proofs.«145064_j82746839925382_2_alg».proof.Proof.Sweep
import proofs.«145064_j82746839925382_2_alg».proof.Proof.TailSide

noncomputable section

namespace Cert.KernelIdeal.Result

open Idealize.ShloMosaic Idealize.ShloMosaic.TcCoe Idealize.SL.Sem Idealize.ShloMosaic.ValueIdx
open Cert.KernelIdeal Cert.KernelIdeal.Gen

/-- Every weakly fair execution of the idealized kernel program terminates, nothing faulting, with its result at the
    specification's term of the two argument arrays, and the argument arrays as they were. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v10)
          = Cert.Spec.tail reducesTo_S4x8192_S_d0_1 h_S_
              (Cert.Spec.nearB (m ((c.tc : Thread nD τ).loc main_arg0)) (m ((c.tc : Thread nD τ).loc main_arg1)))
              (Cert.Spec.nearA (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(Cert.KernelIdeal.TailSide.tail_result m (Cert.KernelIdeal.Body.dats m) r h c).trans (by
        rw [Cert.KernelIdeal.Sweep.arr2 m c, Cert.KernelIdeal.Sweep.arr3 m c]
        refine congrArg₂ (Cert.Spec.tail reducesTo_S4x8192_S_d0_1 h_S_) (funext fun j => ?_) (funext fun j => ?_)
        · obtain ⟨p, n, rfl⟩ : ∃ (p : Fin 4) (n : Fin 8192), j = ix2 p n := ⟨j 0, j 1, eq_ix2 j⟩
          rw [Cert.KernelIdeal.TailSide.reshape_apply]
        · obtain ⟨p, n, rfl⟩ : ∃ (p : Fin 4) (n : Fin 8192), j = ix2 p n := ⟨j 0, j 1, eq_ix2 j⟩
          rw [Cert.KernelIdeal.TailSide.reshape_apply]),
      Cert.KernelIdeal.TailSide.args_kept m (Cert.KernelIdeal.Body.dats m) (Cert.KernelIdeal.Body.A_eq m) r h c⟩)
    (Cert.KernelIdeal.Body.run_main (F := Ideal) m ρ)

end Cert.KernelIdeal.Result

end
-- ==== Proof.lean ====
/-
  A chamfer distance between two clouds of points in three-space, four batches of 8192 points each: for every point of
  one cloud the squared distance to its nearest point of the other, clamped below at zero, square-rooted and averaged,
  both ways round, added and halved.

  The kernel walks a 4 x 4 x 4 grid (batch, tile of the first cloud, tile of the second), forms each 2048 x 2048 tile of
  squared distances |a|^2 + |b|^2 + <(-2)a, b>, and lowers two running minima: along the rows of the tile into a block
  of the first output that is written back after each sweep of the second cloud's tiles, and along its columns into the
  slice of a block of the second output that stays resident for the whole batch. The reference forms all squared
  distances as (|a|^2 + |b|^2) - 2<a, b> at once and takes the two minima whole. Over the extended reals the two
  minima of minima are the same infima (the tiles exhaust the index sets, and a minimum is told by what lies below
  it); the two arrangements of the squared distance agree because the coordinates are finite, which is where the
  precondition is used (moving the factor -2 across the three-term sum is distributivity). The operations after the
  minima are the same in both programs.

  The three frames: the reference's is its run with the result forgotten; the kernel's, read at words and read at
  extended reals, is the same argument twice — the body run in its three cases (a batch begins; a sweep begins inside a
  batch; elsewhere), the two output buffers' contents told by recursion on the grid point, and the call's launch.
  The idealization rewrote nothing, so there is nothing to preserve.
-/
import proofs.«145064_j82746839925382_2_alg».proof.Defs
import proofs.«145064_j82746839925382_2_alg».proof.Proof.Assemble
import proofs.«145064_j82746839925382_2_alg».proof.Proof.KernelValue

noncomputable section

namespace Cert.Proof

theorem claim : Cert.Claim := Cert.Assemble.claim_of Cert.KernelIdeal.Result.kernel_run

end Cert.Proof

end
